-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x8x128 : Shape := ⟨4, ![4, 1024, 8, 128]⟩
abbrev S128x128 : Shape := ⟨2, ![128, 128]⟩
abbrev S128 : Shape := ⟨1, ![128]⟩
abbrev S_ : Shape := ⟨0, ![]⟩

class Facts : Prop where
  bcast_S_S4x1024x8x128 : S_.BroadcastsInDim S4x1024x8x128 (![] : Fin 0 → Fin S4x1024x8x128.rank)
  reducesTo_S4x1024x8x128_S_d0_1_2_3 : S4x1024x8x128.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4x1024x8x128 .f32) (main_arg5 : FVec F S4x1024x8x128 .f32) (main_arg6 : FVec F S128x128 .f32) (main_arg7 : FVec F S128 .f32) (main_arg8 : FVec F S128x128 .f32) (main_arg9 : FVec F S128 .f32) (main_v13 : IVec S_ 1) (main_v16 : IVec S4x1024x8x128 1) : IVec S_ 1 :=
  let main_c_5 : IVec S_ 1 := constantI S_ 1 1#1
  let main_v17 : IVec S_ 1 := (fun x v => Host.reduce IntOp.andi x v reducesTo_S4x1024x8x128_S_d0_1_2_3 h_S_) main_v16 main_c_5
  let main_v18 : IVec S_ 1 := andi main_v13 main_v17
  let main_v19 : FVec F S4x1024x8x128 .f32 := Host.absf main_arg4
  let main_cst_6 : FVec F S_ .f32 := constant S_ .f32 0x7F800000#32
  let main_v20 : FVec F S4x1024x8x128 .f32 := broadcastInDim S4x1024x8x128 ![] bcast_S_S4x1024x8x128 main_cst_6
  let main_v21 : IVec S4x1024x8x128 1 := cmpf .olt main_v19 main_v20
  let main_c_7 : IVec S_ 1 := constantI S_ 1 1#1
  let main_v22 : IVec S_ 1 := (fun x v => Host.reduce IntOp.andi x v reducesTo_S4x1024x8x128_S_d0_1_2_3 h_S_) main_v21 main_c_7
  let main_v23 : IVec S_ 1 := andi main_v18 main_v22
  let main_v24 : FVec F S4x1024x8x128 .f32 := Host.absf main_arg5
  let main_cst_8 : FVec F S_ .f32 := constant S_ .f32 0x7F800000#32
  let main_v25 : FVec F S4x1024x8x128 .f32 := broadcastInDim S4x1024x8x128 ![] bcast_S_S4x1024x8x128 main_cst_8
  let main_v26 : IVec S4x1024x8x128 1 := cmpf .olt main_v24 main_v25
  let main_c_9 : IVec S_ 1 := constantI S_ 1 1#1
  let main_v27 : IVec S_ 1 := (fun x v => Host.reduce IntOp.andi x v reducesTo_S4x1024x8x128_S_d0_1_2_3 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x1024x8x128 .f32) (main_arg1 : FVec F S4x1024x8x128 .f32) (main_arg2 : FVec F S4x1024x8x128 .f32) (main_arg3 : FVec F S4x1024x8x128 .f32) (main_arg4 : FVec F S4x1024x8x128 .f32) (main_arg5 : FVec F S4x1024x8x128 .f32) (main_arg6 : FVec F S128x128 .f32) (main_arg7 : FVec F S128 .f32) (main_arg8 : FVec F S128x128 .f32) (main_arg9 : FVec F S128 .f32) : IVec S_ 1 :=
  let main_v0 : FVec F S4x1024x8x128 .f32 := Host.absf main_arg0
  let main_cst : FVec F S_ .f32 := constant S_ .f32 0x7F800000#32
  let main_v1 : FVec F S4x1024x8x128 .f32 := broadcastInDim S4x1024x8x128 ![] bcast_S_S4x1024x8x128 main_cst
  let main_v2 : IVec S4x1024x8x128 1 := cmpf .olt main_v0 main_v1
  let main_c : IVec S_ 1 := constantI S_ 1 1#1
  let main_v3 : IVec S_ 1 := (fun x v => Host.reduce IntOp.andi x v reducesTo_S4x1024x8x128_S_d0_1_2_3 h_S_) main_v2 main_c
  let main_v4 : FVec F S4x1024x8x128 .f32 := Host.absf main_arg1
  let main_cst_0 : FVec F S_ .f32 := constant S_ .f32 0x7F800000#32
  let main_v5 : FVec F S4x1024x8x128 .f32 := broadcastInDim S4x1024x8x128 ![] bcast_S_S4x1024x8x128 main_cst_0
  let main_v6 : IVec S4x1024x8x128 1 := cmpf .olt main_v4 main_v5
  let main_c_1 : IVec S_ 1 := constantI S_ 1 1#1
  let main_v7 : IVec S_ 1 := (fun x v => Host.reduce IntOp.andi x v reducesTo_S4x1024x8x128_S_d0_1_2_3 h_S_) main_v6 main_c_1
  let main_v8 : IVec S_ 1 := andi main_v3 main_v7
  let main_v9 : FVec F S4x1024x8x128 .f32 := Host.absf main_arg2
  let main_cst_2 : FVec F S_ .f32 := constant S_ .f32 0x7F800000#32
  let main_v10 : FVec F S4x1024x8x128 .f32 := broadcastInDim S4x1024x8x128 ![] bcast_S_S4x1024x8x128 main_cst_2
  let main_v11 : IVec S4x1024x8x128 1 := cmpf .olt main_v9 main_v10
  let main_c_3 : IVec S_ 1 := constantI S_ 1 1#1
  let main_v12 : IVec S_ 1 := (fun x v => Host.reduce IntOp.andi x v reducesTo_S4x1024x8x128_S_d0_1_2_3 h_S_) main_v11 main_c_3
  let main_v13 : IVec S_ 1 := andi main_v8 main_v12
  let main_v14 : FVec F S4x1024x8x128 .f32 := Host.absf main_arg3
  let main_cst_4 : FVec F S_ .f32 := constant S_ .f32 0x7F800000#32
  let main_v15 : FVec F S4x1024x8x128 .f32 := broadcastInDim S4x1024x8x128 ![] bcast_S_S4x1024x8x128 main_cst_4
  let main_v16 : IVec S4x1024x8x128 1 := cmpf .olt main_v14 main_v15
  fn_part1 (F := F) main_arg4 main_arg5 main_arg6 main_arg7 main_arg8 main_arg9 main_v13 main_v16
-- ==== Kernel.lean ====
abbrev S4x1024x8x128 : Shape := ⟨4, ![4, 1024, 8, 128]⟩
abbrev S128x128 : Shape := ⟨2, ![128, 128]⟩
abbrev S128 : Shape := ⟨1, ![128]⟩
abbrev S4x1024x1024 : Shape := ⟨3, ![4, 1024, 1024]⟩
abbrev S4x8x1024x1024 : Shape := ⟨4, ![4, 8, 1024, 1024]⟩
abbrev S1x1024x8x128 : Shape := ⟨4, ![1, 1024, 8, 128]⟩
abbrev S1x1024x128 : Shape := ⟨3, ![1, 1024, 128]⟩
abbrev S1x1x1024x1024 : Shape := ⟨4, ![1, 1, 1024, 1024]⟩
abbrev S1x1024x1x128 : Shape := ⟨4, ![1, 1024, 1, 128]⟩
abbrev S1024x1x128 : Shape := ⟨3, ![1024, 1, 128]⟩
abbrev S1024x128 : Shape := ⟨2, ![1024, 128]⟩
abbrev S1x128 : Shape := ⟨2, ![1, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S4x1024x8x128, .f32⟩
  | .hbm, ⟨1, _⟩ => ⟨S4x1024x8x128, .f32⟩
  | .hbm, ⟨2, _⟩ => ⟨S4x1024x8x128, .f32⟩
  | .hbm, ⟨3, _⟩ => ⟨S4x1024x8x128, .f32⟩
  | .hbm, ⟨4, _⟩ => ⟨S4x1024x8x128, .f32⟩
  | .hbm, ⟨5, _⟩ => ⟨S4x1024x8x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S4x1024x1024, .f32⟩
  | .hbm, ⟨11, _⟩ => ⟨S4x8x1024x1024, .f32⟩
  | .local _ .vmem, ⟨0, _⟩ => ⟨S1x1024x8x128, .f32⟩
  | .local _ .vmem, ⟨1, _⟩ => ⟨S1x1024x8x128, .f32⟩
  | .local _ .vmem, ⟨2, _⟩ => ⟨S1x1024x8x128, .f32⟩
  | .local _ .vmem, ⟨3, _⟩ => ⟨S1x1024x8x128, .f32⟩
  | .local _ .vmem, ⟨4, _⟩ => ⟨S1x1024x8x128, .f32⟩
  | .local _ .vmem, ⟨5, _⟩ => ⟨S128x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S1x1024x128, .f32⟩
  | .local _ .vmem, ⟨10, _⟩ => ⟨S1x1024x128, .f32⟩
  | .local _ .vmem, ⟨11, _⟩ => ⟨S1x1x1024x1024, .f32⟩
  | .local _ .vmem, ⟨12, _⟩ => ⟨S1x1x1024x1024, .f32⟩
  | _, _ => ⟨S4x1024x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem9_1 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![4, 8], ![false, false]⟩

def k0_off1 (i : grid0.Coords) : Fin 4 → Nat :=
  let c0_5 : Index := 0#32
  let c0_6 : Index := 0#32
  let arg1 : BitVec 32 := BitVec.ofNat 32 (i 1).val
  let v6 : Index := Scalar.indexCast arg1
  let c0_7 : Index := 0#32
  ![0, 0, v6.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S1x1024x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  h_S1x1024x1x128 : 0 < S1x1024x1x128.numel
  shapeCasts_S1x1024x1x128_S1024x1x128 : S1x1024x1x128.ShapeCasts S1024x1x128
  shapeCasts_S1024x1x128_S1024x128 : S1024x1x128.ShapeCasts S1024x128
  shapeCasts_S128_S1x128 : S128.ShapeCasts S1x128
  broadcasts_S1x128_S1024x128 : S1x128.Broadcasts S1024x128
  reduces_S1024x1024_S1024 : S1024x1024.Reduces [1] S1024
  shapeCasts_S1024_S1024x1 : S1024.ShapeCasts S1024x1
  broadcasts_S1024x1_S1024x1024 : S1024x1.Broadcasts S1024x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  dot_S1024x128_S128x128_S1024x128_1_0_0_1_n_n_wf : DotDims.WF S1024x128 S128x128 S1024x128 [1] [0] [0] [1] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  k0_off1_inb : ∀ i : grid0.Coords, ∀ a, (k0_off1 i) a + S1x1024x1x128.size a ≤ S1x1024x8x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024x8x128.size a ≤ S4x1024x8x128.size a
  hwx0_0 : ∀ i : grid0.Coords, EltTy.bits .f32 = 32 ∨ (Rect.block (s := S4x1024x8x128) S1x1024x8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x8x128.size a ≤ S4x1024x8x128.size a
  hwx0_1 : ∀ i : grid0.Coords, EltTy.bits .f32 = 32 ∨ (Rect.block (s := S4x1024x8x128) S1x1024x8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024x8x128.size a ≤ S4x1024x8x128.size a
  hwx0_2 : ∀ i : grid0.Coords, EltTy.bits .f32 = 32 ∨ (Rect.block (s := S4x1024x8x128) S1x1024x8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024x8x128.size a ≤ S4x1024x8x128.size a
  hwx0_3 : ∀ i : grid0.Coords, EltTy.bits .f32 = 32 ∨ (Rect.block (s := S4x1024x8x128) S1x1024x8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024x8x128.size a ≤ S4x1024x8x128.size a
  hwx0_4 : ∀ i : grid0.Coords, EltTy.bits .f32 = 32 ∨ (Rect.block (s := S4x1024x8x128) S1x1024x8x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x128.size a ≤ S4x1024x1024.size a
  hwx0_9 : ∀ i : grid0.Coords, EltTy.bits .f32 = 32 ∨ (Rect.block (s := S4x1024x1024) S1x1024x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1024x1024.size a ≤ S4x8x1024x1024.size a
  hwx0_10 : ∀ i : grid0.Coords, EltTy.bits .f32 = 32 ∨ (Rect.block (s := S4x8x1024x1024) S1x1x1024x1024.size (cc0_transform_10 i) (hinb0_10 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x1024x8x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1024x8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S1x1024x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S1x1x1024x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x1024x8x128 : Shape := ⟨4, ![4, 1024, 8, 128]⟩
abbrev S128x128 : Shape := ⟨2, ![128, 128]⟩
abbrev S128 : Shape := ⟨1, ![128]⟩
abbrev S1x1x1x128 : Shape := ⟨4, ![1, 1, 1, 128]⟩
abbrev S4x8x1024x128 : Shape := ⟨4, ![4, 8, 1024, 128]⟩
abbrev S4x8x1024x1024 : Shape := ⟨4, ![4, 8, 1024, 1024]⟩
abbrev S_ : Shape := ⟨0, ![]⟩
abbrev S4x8x1024 : Shape := ⟨3, ![4, 8, 1024]⟩
abbrev S4x8x1024x1 : Shape := ⟨4, ![4, 8, 1024, 1]⟩
abbrev S4x1024x1024 : Shape := ⟨3, ![4, 1024, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4x1024x8x128, .f32⟩
  | .hbm, ⟨1, _⟩ => ⟨S4x1024x8x128, .f32⟩
  | .hbm, ⟨2, _⟩ => ⟨S4x1024x8x128, .f32⟩
  | .hbm, ⟨3, _⟩ => ⟨S4x1024x8x128, .f32⟩
  | .hbm, ⟨4, _⟩ => ⟨S4x1024x8x128, .f32⟩
  | .hbm, ⟨5, _⟩ => ⟨S4x1024x8x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S4x1024x8x128, .f32⟩
  | .hbm, ⟨11, _⟩ => ⟨S1x1x1x128, .f32⟩
  | .hbm, ⟨12, _⟩ => ⟨S4x1024x8x128, .f32⟩
  | .hbm, ⟨13, _⟩ => ⟨S4x1024x8x128, .f32⟩
  | .hbm, ⟨14, _⟩ => ⟨S4x8x1024x128, .f32⟩
  | .hbm, ⟨15, _⟩ => ⟨S4x1024x8x128, .f32⟩
  | .hbm, ⟨16, _⟩ => ⟨S1x1x1x128, .f32⟩
  | .hbm, ⟨17, _⟩ => ⟨S4x1024x8x128, .f32⟩
  | .hbm, ⟨18, _⟩ => ⟨S4x1024x8x128, .f32⟩
  | .hbm, ⟨19, _⟩ => ⟨S4x8x1024x128, .f32⟩
  | .hbm, ⟨20, _⟩ => ⟨S4x1024x8x128, .f32⟩
  | .hbm, ⟨21, _⟩ => ⟨S1x1x1x128, .f32⟩
  | .hbm, ⟨22, _⟩ => ⟨S4x1024x8x128, .f32⟩
  | .hbm, ⟨23, _⟩ => ⟨S4x1024x8x128, .f32⟩
  | .hbm, ⟨24, _⟩ => ⟨S4x8x1024x128, .f32⟩
  | .hbm, ⟨25, _⟩ => ⟨S4x1024x8x128, .f32⟩
  | .hbm, ⟨26, _⟩ => ⟨S1x1x1x128, .f32⟩
  | .hbm, ⟨27, _⟩ => ⟨S4x1024x8x128, .f32⟩
  | .hbm, ⟨28, _⟩ => ⟨S4x1024x8x128, .f32⟩
  | .hbm, ⟨29, _⟩ => ⟨S4x8x1024x128, .f32⟩
  | .hbm, ⟨30, _⟩ => ⟨S4x1024x8x128, .f32⟩
  | .hbm, ⟨31, _⟩ => ⟨S1x1x1x128, .f32⟩
  | .hbm, ⟨32, _⟩ => ⟨S4x1024x8x128, .f32⟩
  | .hbm, ⟨33, _⟩ => ⟨S4x1024x8x128, .f32⟩
  | .hbm, ⟨34, _⟩ => ⟨S4x8x1024x128, .f32⟩
  | .hbm, ⟨35, _⟩ => ⟨S4x1024x8x128, .f32⟩
  | .hbm, ⟨36, _⟩ => ⟨S1x1x1x128, .f32⟩
  | .hbm, ⟨37, _⟩ => ⟨S4x1024x8x128, .f32⟩
  | .hbm, ⟨38, _⟩ => ⟨S4x1024x8x128, .f32⟩
  | .hbm, ⟨39, _⟩ => ⟨S4x8x1024x128, .f32⟩
  | .hbm, ⟨40, _⟩ => ⟨S4x8x1024x1024, .f32⟩
  | .hbm, ⟨41, _⟩ => ⟨S_, .f32⟩
  | .hbm, ⟨42, _⟩ => ⟨S4x8x1024x1024, .f32⟩
  | .hbm, ⟨43, _⟩ => ⟨S4x8x1024x1024, .f32⟩
  | .hbm, ⟨44, _⟩ => ⟨S_, .f32⟩
  | .hbm, ⟨45, _⟩ => ⟨S4x8x1024, .f32⟩
  | .hbm, ⟨46, _⟩ => ⟨S_, .f32⟩
  | .hbm, ⟨47, _⟩ => ⟨S4x8x1024, .f32⟩
  | .hbm, ⟨48, _⟩ => ⟨S4x8x1024, .f32⟩
  | .hbm, ⟨49, _⟩ => ⟨S4x8x1024x1, .f32⟩
  | .hbm, ⟨50, _⟩ => ⟨S4x8x1024x1024, .f32⟩
  | .hbm, ⟨51, _⟩ => ⟨S4x8x1024x1024, .f32⟩
  | .hbm, ⟨52, _⟩ => ⟨S4x8x1024x1024, .f32⟩
  | .hbm, ⟨53, _⟩ => ⟨S_, .f32⟩
  | .hbm, ⟨54, _⟩ => ⟨S4x8x1024, .f32⟩
  | .hbm, ⟨55, _⟩ => ⟨S4x8x1024x1, .f32⟩
  | .hbm, ⟨56, _⟩ => ⟨S4x8x1024x1024, .f32⟩
  | .hbm, ⟨57, _⟩ => ⟨S4x8x1024x1024, .f32⟩
  | .hbm, ⟨58, _⟩ => ⟨S4x8x1024x1024, .f32⟩
  | .hbm, ⟨59, _⟩ => ⟨S_, .f32⟩
  | .hbm, ⟨60, _⟩ => ⟨S4x8x1024x1024, .f32⟩
  | .hbm, ⟨61, _⟩ => ⟨S4x8x1024x1024, .f32⟩
  | .hbm, ⟨62, _⟩ => ⟨S_, .f32⟩
  | .hbm, ⟨63, _⟩ => ⟨S4x8x1024, .f32⟩
  | .hbm, ⟨64, _⟩ => ⟨S_, .f32⟩
  | .hbm, ⟨65, _⟩ => ⟨S4x8x1024, .f32⟩
  | .hbm, ⟨66, _⟩ => ⟨S4x8x1024, .f32⟩
  | .hbm, ⟨67, _⟩ => ⟨S4x8x1024x1, .f32⟩
  | .hbm, ⟨68, _⟩ => ⟨S4x8x1024x1024, .f32⟩
  | .hbm, ⟨69, _⟩ => ⟨S4x8x1024x1024, .f32⟩
  | .hbm, ⟨70, _⟩ => ⟨S4x8x1024x1024, .f32⟩
  | .hbm, ⟨71, _⟩ => ⟨S_, .f32⟩
  | .hbm, ⟨72, _⟩ => ⟨S4x8x1024, .f32⟩
  | .hbm, ⟨73, _⟩ => ⟨S4x8x1024x1, .f32⟩
  | .hbm, ⟨74, _⟩ => ⟨S4x8x1024x1024, .f32⟩
  | .hbm, ⟨75, _⟩ => ⟨S4x8x1024x1024, .f32⟩
  | .hbm, ⟨76, _⟩ => ⟨S4x8x1024x128, .f32⟩
  | .hbm, ⟨77, _⟩ => ⟨S4x1024x8x128, .f32⟩
  | .hbm, ⟨78, _⟩ => ⟨S4x1024x1024, .f32⟩
  | _, _ => ⟨S4x1024x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst : Ref sig .tc := ⟨.hbm, 41, rfl⟩
abbrev main_v31 : Ref sig .tc := ⟨.hbm, 42, rfl⟩
abbrev main_v32 : Ref sig .tc := ⟨.hbm, 43, rfl⟩
abbrev main_cst_0 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_2 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S4x1024x8x128_0_1_2_3 : S1x1x1x128.BroadcastsInDim S4x1024x8x128 (![0, 1, 2, 3] : Fin 4 → Fin S4x1024x8x128.rank)
  transposes_S4x1024x8x128_S4x8x1024x128_0_2_1_3 : S4x1024x8x128.Transposes [0, 2, 1, 3] S4x8x1024x128
  bcast_S_S4x8x1024x1024 : S_.BroadcastsInDim S4x8x1024x1024 (![] : Fin 0 → Fin S4x8x1024x1024.rank)
  reducesTo_S4x8x1024x1024_S4x8x1024_d3 : S4x8x1024x1024.ReducesTo [3] S4x8x1024
  h_S_ : 0 < S_.numel
  bcast_S_S4x8x1024 : S_.BroadcastsInDim S4x8x1024 (![] : Fin 0 → Fin S4x8x1024.rank)
  bcast_S4x8x1024_S4x8x1024x1_0_1_2 : S4x8x1024.BroadcastsInDim S4x8x1024x1 (![0, 1, 2] : Fin 3 → Fin S4x8x1024x1.rank)
  bcast_S4x8x1024x1_S4x8x1024x1024_0_1_2_3 : S4x8x1024x1.BroadcastsInDim S4x8x1024x1024 (![0, 1, 2, 3] : Fin 4 → Fin S4x8x1024x1024.rank)
  transposes_S4x8x1024x128_S4x1024x8x128_0_2_1_3 : S4x8x1024x128.Transposes [0, 2, 1, 3] S4x1024x8x128
  shapeCasts_S4x1024x8x128_S4x1024x1024 : S4x1024x8x128.ShapeCasts S4x1024x1024
  dot_S4x1024x8x128_S128x128_S4x1024x8x128_3_0_012_1_n_n_wf : DotDims.WF S4x1024x8x128 S128x128 S4x1024x8x128 [3] [0] [0, 1, 2] [1] [] []
  dot_S4x8x1024x128_S4x8x1024x128_S4x8x1024x1024_3_3_2_2_01_01_wf : DotDims.WF S4x8x1024x128 S4x8x1024x128 S4x8x1024x1024 [3] [3] [2] [2] [0, 1] [0, 1]
  dot_S4x8x1024x1024_S4x8x1024x128_S4x8x1024x128_3_2_2_3_01_01_wf : DotDims.WF S4x8x1024x1024 S4x8x1024x128 S4x8x1024x128 [3] [2] [2] [3] [0, 1] [0, 1]

variable [Facts₀]

def dot_S4x1024x8x128_S128x128_S4x1024x8x128_3_0_012_1_n_n : DotDims S4x1024x8x128 S128x128 S4x1024x8x128 where
  lhsContracting := [3]
  rhsContracting := [0]
  lhsNonContracting := [0, 1, 2]
  rhsNonContracting := [1]
  lhsBatch := []
  rhsBatch := []
  wf := dot_S4x1024x8x128_S128x128_S4x1024x8x128_3_0_012_1_n_n_wf
def dot_S4x8x1024x128_S4x8x1024x128_S4x8x1024x1024_3_3_2_2_01_01 : DotDims S4x8x1024x128 S4x8x1024x128 S4x8x1024x1024 where
  lhsContracting := [3]
  rhsContracting := [3]
  lhsNonContracting := [2]
  rhsNonContracting := [2]
  lhsBatch := [0, 1]
  rhsBatch := [0, 1]
  wf := dot_S4x8x1024x128_S4x8x1024x128_S4x8x1024x1024_3_3_2_2_01_01_wf
def dot_S4x8x1024x1024_S4x8x1024x128_S4x8x1024x128_3_2_2_3_01_01 : DotDims S4x8x1024x1024 S4x8x1024x128 S4x8x1024x128 where
  lhsContracting := [3]
  rhsContracting := [2]
  lhsNonContracting := [2]
  rhsNonContracting := [3]
  lhsBatch := [0, 1]
  rhsBatch := [0, 1]
  wf := dot_S4x8x1024x1024_S4x8x1024x128_S4x8x1024x128_3_2_2_3_01_01_wf

class Facts : Prop extends Facts₀ where

variable [Facts]
-- ==== Proof.Pieces.lean ====
/-
  What one grid point's run of the kernel body leaves in the two output staging buffers, as values.

  The body stores each output block once, whole.  Its first store writes the attention-mixed visual values of the
  point's head, its second the visual-over-text attention weights; both are pure functions of what the body loaded:
  the two weight matrices and the two biases whole, and from each of the five feature blocks [1, 1024, 8, 128] the
  one head the point works on — the rows [0, n, h, d] for h the point's second grid coordinate (`slab`).
  The run found the stores as one covering piece per output; read back, a covering store at zero offsets leaves its
  payload, and a load of a whole buffer at zero offsets reads its contents.
-/
import proofs.«123841_j88502096101977_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.CrossAttn.Pieces

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The head a grid point works on, cut out of a feature block [1, 1024, 8, 128]: entry [0, n, 0, d] of the slab is
    entry [0, n, h, d] of the block, h the point's second coordinate. -/
abbrev slab (i : grid0.Coords) (X : Vec F S1x1024x8x128 .f32) : Vec F S1x1024x1x128 .f32 :=
  View.ld X (Rect.unit (s := S1x1024x8x128) (k0_off1 i) S1x1024x1x128.size (Facts₀.k0_off1_inb i))

/-- The first output's staging buffer after the body: the mixed visual values, a function of the text weights and bias
    (x7, x8), the visual weights and bias (x5, x6) and the point's head of visual_key (x1), visual_value (x2) and
    text_query (x3). -/
theorem out9 (c : Dev nD) (i : grid0.Coords) (arg2 : Memref sig .tc .vmem S1x1024x8x128 .f32) (harg2 : arg2.IsWhole) (arg3 : Memref sig .tc .vmem S1x1024x8x128 .f32) (harg3 : arg3.IsWhole) (arg4 : Memref sig .tc .vmem S1x1024x8x128 .f32) (harg4 : arg4.IsWhole) (arg5 : Memref sig .tc .vmem S1x1024x8x128 .f32) (harg5 : arg5.IsWhole) (arg6 : Memref sig .tc .vmem S1x1024x8x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x1024x128 .f32) (harg11 : arg11.IsWhole) (arg12 : Memref sig .tc .vmem S1x1x1024x1024 .f32) (harg12 : arg12.IsWhole)
    (x0 : Vec F S1x1024x8x128 .f32) (x1 : Vec F S1x1024x8x128 .f32) (x2 : Vec F S1x1024x8x128 .f32) (x3 : Vec F S1x1024x8x128 .f32) (x4 : Vec F S1x1024x8x128 .f32) (x5 : Vec F S128x128 .f32) (x6 : Vec F S128 .f32) (x7 : Vec F S128x128 .f32) (x8 : Vec F S128 .f32) :
    out0_A_9 c i arg2 harg2 arg3 harg3 arg4 harg4 arg5 harg5 arg6 harg6 arg7 harg7 arg8 harg8 arg9 harg9 arg10 harg10 arg11 harg11 arg12 harg12 x0 x1 x2 x3 x4 x5 x6 x7 x8
      = k0_pay8 (k0_pay3 x7) x8 (k0_pay5 x5 x6 (slab i x1)) (k0_pay6 x5 x6 (slab i x2)) (k0_pay7 (slab i x3)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_run_names
  rw [View.canon_unit_zero hz3]
  simp only [View.readAt_eq_ld, harg3.read_unread, harg4.read_unread, harg5.read_unread, harg7.read_unread, harg8.read_unread, harg9.read_unread, harg10.read_unread, View.ld_unit_zero (S := S128x128) hz2, View.ld_unit_zero (S := S128) hz1]

/-- The second output's staging buffer after the body: the attention weights of the point's head of visual_query (x0)
    over its head of text_key (x4). -/
theorem out10 (c : Dev nD) (i : grid0.Coords) (arg2 : Memref sig .tc .vmem S1x1024x8x128 .f32) (harg2 : arg2.IsWhole) (arg3 : Memref sig .tc .vmem S1x1024x8x128 .f32) (harg3 : arg3.IsWhole) (arg4 : Memref sig .tc .vmem S1x1024x8x128 .f32) (harg4 : arg4.IsWhole) (arg5 : Memref sig .tc .vmem S1x1024x8x128 .f32) (harg5 : arg5.IsWhole) (arg6 : Memref sig .tc .vmem S1x1024x8x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S128x128 .f32) (harg9 : arg9.IsWhole) (arg10 : Memref sig .tc .vmem S128 .f32) (harg10 : arg10.IsWhole) (arg11 : Memref sig .tc .vmem S1x1024x128 .f32) (harg11 : arg11.IsWhole) (arg12 : Memref sig .tc .vmem S1x1x1024x1024 .f32) (harg12 : arg12.IsWhole)
    (x0 : Vec F S1x1024x8x128 .f32) (x1 : Vec F S1x1024x8x128 .f32) (x2 : Vec F S1x1024x8x128 .f32) (x3 : Vec F S1x1024x8x128 .f32) (x4 : Vec F S1x1024x8x128 .f32) (x5 : Vec F S128x128 .f32) (x6 : Vec F S128 .f32) (x7 : Vec F S128x128 .f32) (x8 : Vec F S128 .f32) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 x8
      = k0_pay1 (k0_pay9 (k0_pay3 x7) x8 (k0_pay4 x5 x6 (slab i x0)) (slab i x4)) (k0_pay10 (k0_pay3 x7) x8 (k0_pay4 x5 x6 (slab i x0)) (slab i x4)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_run_names
  rw [View.canon_unit_zero hz4]
  simp only [View.readAt_eq_ld, harg2.read_unread, harg6.read_unread, harg7.read_unread, harg8.read_unread, harg9.read_unread, harg10.read_unread, View.ld_unit_zero (S := S128x128) hz2, View.ld_unit_zero (S := S128) hz1]

end Cert.CrossAttn.Pieces

end
-- ==== Proof.Spec.lean ====
/-
  The mathematics both programs compute, written once over the extended reals with explicit coordinates.

  Inputs: six feature arrays of shape [4, 1024, 8, 128] (batch, node, head, feature), two weight matrices
  [128, 128] and two bias vectors [128].  A modality's linear projection acts on the feature axis:
      proj X W β (b, h, n, e) = (∑ d, X[b, n, h, d] · W[d, e]) + β[e].
  For a batch entry b and a head h, with Q and K two projected [1024, 128] slabs,
      score Q K (r, c)    = (∑ d, Q[r, d] · K[c, d]) · scale          (scale: the f32 nearest 1/√128)
      rowMax S r          = the maximum of row r of S, folded from −∞
      expShift S (r, c)   = exp (S[r, c] − rowMax S r)
      softmax S (r, c)    = expShift S (r, c) / ∑ c', expShift S (r, c')
      mix P V (r, e)      = ∑ c, P[r, c] · V[c, e].
  The two results are
      weights  [b, h, v, t]      = softmax (score (proj visual_query) (proj text_key)) (v, t)
      features [b, t, 128·h + e] = mix (softmax (score (proj text_query) (proj visual_key))) (proj visual_value) (t, e).
  Nothing here depends on the order in which a sum or a maximum is taken, nor on how the arrays are cut into
  blocks: that is what lets one statement serve a blocked kernel and a whole-array reference.
-/
import Idealize.ShloMosaic.PureOps.Ideal
import Idealize.ShloMosaic.Lib.ValueIdx

noncomputable section

namespace Cert.CrossAttn

open Idealize.ShloMosaic Idealize.ShloMosaic.ValueIdx

/-- A feature array [batch 4, node 1024, head 8, feature 128]. -/
abbrev Feat : Type := (⟨4, ![4, 1024, 8, 128]⟩ : Shape).Idx → EReal
/-- One head of one batch entry as the kernel loads it: [1, 1024, 1, 128]. -/
abbrev Slab : Type := (⟨4, ![1, 1024, 1, 128]⟩ : Shape).Idx → EReal
/-- A projection's weight matrix [128, 128] (input feature, output feature). -/
abbrev Mat : Type := (⟨2, ![128, 128]⟩ : Shape).Idx → EReal
/-- A projection's bias [128]. -/
abbrev Bias : Type := (⟨1, ![128]⟩ : Shape).Idx → EReal

/-- −∞: what a row maximum is folded from. -/
def negInf : EReal := Ideal.ofBits .f32 0xFF800000#32

/-- The logit scale, the single-precision number nearest 1/√128: both programs carry this same word. -/
def scale : EReal := Ideal.ofBits .f32 0x3DB504F3#32

/-- The linear projection of node `n` of head `h` of batch entry `b`, output feature `e`. -/
def proj (X : Feat) (W : Mat) (β : Bias) (b : Fin 4) (h : Fin 8) (n : Fin 1024) (e : Fin 128) : EReal :=
  (∑ d : Fin 128, X (ix4 b n h d) * W (ix2 d e)) + β (ix1 e)

/-- The same projection of a slab that already holds one head of one batch entry. -/
def projSlab (X : Slab) (W : Mat) (β : Bias) (n : Fin 1024) (e : Fin 128) : EReal :=
  (∑ d : Fin 128, X (ix4 0 n 0 d) * W (ix2 d e)) + β (ix1 e)

/-- Scaled dot products of the rows of `Q` with the rows of `K`. -/
def score (Q K : Fin 1024 → Fin 128 → EReal) (r c : Fin 1024) : EReal :=
  (∑ d : Fin 128, Q r d * K c d) * scale

/-- The maximum of row `r`, folded from −∞. -/
def rowMax (S : Fin 1024 → Fin 1024 → EReal) (r : Fin 1024) : EReal :=
  (Finset.univ : Finset (Fin 1024)).fold max negInf (S r)

/-- The exponential of an entry less its row's maximum. -/
def expShift (S : Fin 1024 → Fin 1024 → EReal) (r c : Fin 1024) : EReal :=
  Ideal.exp (S r c - rowMax S r)

/-- Row-wise softmax. -/
def softmax (S : Fin 1024 → Fin 1024 → EReal) (r c : Fin 1024) : EReal :=
  Ideal.div (expShift S r c) (∑ c' : Fin 1024, expShift S r c')

/-- A weighted combination of the rows of `V`. -/
def mix (P : Fin 1024 → Fin 1024 → EReal) (V : Fin 1024 → Fin 128 → EReal) (r : Fin 1024) (e : Fin 128) : EReal :=
  ∑ c : Fin 1024, P r c * V c e

/-- Attention weights of the queries `Xq` (projected by `Wq`, `βq`) over the keys `Xk` (projected by `Wk`, `βk`),
    for batch entry `b` and head `h`. -/
def attn (Xq : Feat) (Wq : Mat) (βq : Bias) (Xk : Feat) (Wk : Mat) (βk : Bias) (b : Fin 4) (h : Fin 8)
    (r c : Fin 1024) : EReal :=
  softmax (score (proj Xq Wq βq b h) (proj Xk Wk βk b h)) r c

/-- The head a column of the flattened [head · 128 + feature] axis belongs to. -/
def headOf (j : Fin 1024) : Fin 8 := ⟨j.val / 128, by have := j.isLt; omega⟩
/-- The feature a column of the flattened axis holds. -/
def laneOf (j : Fin 1024) : Fin 128 := ⟨j.val % 128, Nat.mod_lt _ (by decide)⟩

/-- Second result: the attention weights of the visual queries over the text keys, [4, 8, 1024, 1024]. -/
def weights (vq tk : Feat) (vW : Mat) (vb : Bias) (tW : Mat) (tb : Bias) :
    (⟨4, ![4, 8, 1024, 1024]⟩ : Shape).Idx → EReal :=
  fun i => attn vq vW vb tk tW tb (i 0) (i 1) (i 2) (i 3)

/-- First result: the visual values mixed by the text-over-visual attention weights, heads side by side on the
    last axis, [4, 1024, 8 · 128]. -/
def features (vk vv tq : Feat) (vW : Mat) (vb : Bias) (tW : Mat) (tb : Bias) :
    (⟨3, ![4, 1024, 1024]⟩ : Shape).Idx → EReal :=
  fun i => mix (attn tq tW tb vk vW vb (i 0) (headOf (i 2))) (proj vv vW vb (i 0) (headOf (i 2))) (i 1) (laneOf (i 2))

theorem weights_ix (vq tk : Feat) (vW : Mat) (vb : Bias) (tW : Mat) (tb : Bias) (b : Fin 4) (h : Fin 8) (r c : Fin 1024) :
    weights vq tk vW vb tW tb (ix4 b h r c) = attn vq vW vb tk tW tb b h r c := rfl

theorem features_ix (vk vv tq : Feat) (vW : Mat) (vb : Bias) (tW : Mat) (tb : Bias) (b : Fin 4) (t j : Fin 1024) :
    features vk vv tq vW vb tW tb (ix3 b t j)
      = mix (attn tq tW tb vk vW vb b (headOf j)) (proj vv vW vb b (headOf j)) t (laneOf j) := rfl

end Cert.CrossAttn

end
-- ==== Proof.BlockReads.lean ====
/-
  Reading the kernel's blocks as parts of the whole arrays.

  The grid is 4 × 8: point t works on batch entry b = t's first coordinate and head h = its second.  Each of the five
  feature windows hands the body the whole [1, 1024, 8, 128] slice of batch entry b (its block index is (b, 0, 0, 0)),
  the weight and bias windows hand it their whole arrays (block index zero); an element of a block sits in its
  array at block index × block size + its coordinate inside the block.  The body then takes head h of each feature
  block.  So the projection the body computes from a loaded slab is the projection of the whole array at (b, h).
-/
import proofs.«123841_j88502096101977_2_alg».proof.Proof.Gen.KernelIdeal.Value
import proofs.«123841_j88502096101977_2_alg».proof.Proof.Pieces
import proofs.«123841_j88502096101977_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.CrossAttn.Blocks

open Cert.KernelIdeal Cert.KernelIdeal.Gen Cert.CrossAttn

variable (m : (ℓ : Loc nD τ sig) → Buf (Elt Ideal) ℓ)

/-- The batch entry a grid point works on: its first coordinate. -/
def bOf (t : Fin cfg0.N) : Fin 4 := grid0.coords t 0
/-- The head a grid point works on: its second coordinate. -/
def hOf (t : Fin cfg0.N) : Fin 8 := grid0.coords t 1

/-- The feature windows' block indices at every grid point: (b, 0, 0, 0). -/
theorem idx_feat : ∀ t : Fin cfg0.N,
    (win0_0.index t (0 : Fin 4) = (grid0.coords t 0).val ∧ win0_0.index t (1 : Fin 4) = 0 ∧ win0_0.index t (2 : Fin 4) = 0 ∧ win0_0.index t (3 : Fin 4) = 0)
    ∧ (win0_1.index t (0 : Fin 4) = (grid0.coords t 0).val ∧ win0_1.index t (1 : Fin 4) = 0 ∧ win0_1.index t (2 : Fin 4) = 0 ∧ win0_1.index t (3 : Fin 4) = 0)
    ∧ (win0_2.index t (0 : Fin 4) = (grid0.coords t 0).val ∧ win0_2.index t (1 : Fin 4) = 0 ∧ win0_2.index t (2 : Fin 4) = 0 ∧ win0_2.index t (3 : Fin 4) = 0)
    ∧ (win0_3.index t (0 : Fin 4) = (grid0.coords t 0).val ∧ win0_3.index t (1 : Fin 4) = 0 ∧ win0_3.index t (2 : Fin 4) = 0 ∧ win0_3.index t (3 : Fin 4) = 0)
    ∧ (win0_4.index t (0 : Fin 4) = (grid0.coords t 0).val ∧ win0_4.index t (1 : Fin 4) = 0 ∧ win0_4.index t (2 : Fin 4) = 0 ∧ win0_4.index t (3 : Fin 4) = 0) :=
  (by decide +kernel : ∀ t : Fin grid0.N, _)

/-- The weight and bias windows' block indices at every grid point: zero. -/
theorem idx_par : ∀ t : Fin cfg0.N,
    (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0 :=
  (by decide +kernel : ∀ t : Fin grid0.N, _)

/-- The output windows' block indices at every grid point: (b, 0, h) and (b, h, 0, 0). -/
theorem idx_out : ∀ t : Fin cfg0.N,
    (win0_9.index t (0 : Fin 3) = (grid0.coords t 0).val ∧ win0_9.index t (1 : Fin 3) = 0 ∧ win0_9.index t (2 : Fin 3) = (grid0.coords t 1).val)
    ∧ (win0_10.index t (0 : Fin 4) = (grid0.coords t 0).val ∧ win0_10.index t (1 : Fin 4) = (grid0.coords t 1).val
        ∧ win0_10.index t (2 : Fin 4) = 0 ∧ win0_10.index t (3 : Fin 4) = 0) :=
  (by decide +kernel : ∀ t : Fin grid0.N, _)

/-- Every (batch entry, head) pair is some grid point's. -/
theorem point_of : ∀ (b : Fin 4) (h : Fin 8), ∃ t : Fin cfg0.N, (grid0.coords t 0).val = b.val ∧ (grid0.coords t 1).val = h.val :=
  (by decide +kernel : ∀ (b : Fin 4) (h : Fin 8), ∃ t : Fin grid0.N, (grid0.coords t 0).val = b.val ∧ (grid0.coords t 1).val = h.val)

/-! ## A feature block is batch entry b of its array -/

theorem iblk0_apply (c : Dev nD) (t : Fin cfg0.N) (n : Fin 1024) (h : Fin 8) (d : Fin 128) :
    (iblk m c 0 t : Vec Ideal S1x1024x8x128 .f32) (ix4 0 n h d) = V m c main_arg0 (ix4 (bOf t) n h d) := by
  unfold iblk
  rw [View.read_apply]
  show V m c main_arg0 _ = V m c main_arg0 _
  refine congrArg (V m c main_arg0) ?_
  obtain ⟨e0, e1, e2, e3⟩ := (idx_feat t).1
  funext a; apply Fin.ext
  match a with
  | ⟨0, _⟩ => show win0_0.index t (0 : Fin 4) * 1 + 1 * 0 = (grid0.coords t 0).val; omega
  | ⟨1, _⟩ => show win0_0.index t (1 : Fin 4) * 1024 + 1 * n.val = n.val; omega
  | ⟨2, _⟩ => show win0_0.index t (2 : Fin 4) * 8 + 1 * h.val = h.val; omega
  | ⟨3, _⟩ => show win0_0.index t (3 : Fin 4) * 128 + 1 * d.val = d.val; omega

theorem iblk1_apply (c : Dev nD) (t : Fin cfg0.N) (n : Fin 1024) (h : Fin 8) (d : Fin 128) :
    (iblk m c 1 t : Vec Ideal S1x1024x8x128 .f32) (ix4 0 n h d) = V m c main_arg1 (ix4 (bOf t) n h d) := by
  unfold iblk
  rw [View.read_apply]
  show V m c main_arg1 _ = V m c main_arg1 _
  refine congrArg (V m c main_arg1) ?_
  obtain ⟨e0, e1, e2, e3⟩ := (idx_feat t).2.1
  funext a; apply Fin.ext
  match a with
  | ⟨0, _⟩ => show win0_1.index t (0 : Fin 4) * 1 + 1 * 0 = (grid0.coords t 0).val; omega
  | ⟨1, _⟩ => show win0_1.index t (1 : Fin 4) * 1024 + 1 * n.val = n.val; omega
  | ⟨2, _⟩ => show win0_1.index t (2 : Fin 4) * 8 + 1 * h.val = h.val; omega
  | ⟨3, _⟩ => show win0_1.index t (3 : Fin 4) * 128 + 1 * d.val = d.val; omega

theorem iblk2_apply (c : Dev nD) (t : Fin cfg0.N) (n : Fin 1024) (h : Fin 8) (d : Fin 128) :
    (iblk m c 2 t : Vec Ideal S1x1024x8x128 .f32) (ix4 0 n h d) = V m c main_arg2 (ix4 (bOf t) n h d) := by
  unfold iblk
  rw [View.read_apply]
  show V m c main_arg2 _ = V m c main_arg2 _
  refine congrArg (V m c main_arg2) ?_
  obtain ⟨e0, e1, e2, e3⟩ := (idx_feat t).2.2.1
  funext a; apply Fin.ext
  match a with
  | ⟨0, _⟩ => show win0_2.index t (0 : Fin 4) * 1 + 1 * 0 = (grid0.coords t 0).val; omega
  | ⟨1, _⟩ => show win0_2.index t (1 : Fin 4) * 1024 + 1 * n.val = n.val; omega
  | ⟨2, _⟩ => show win0_2.index t (2 : Fin 4) * 8 + 1 * h.val = h.val; omega
  | ⟨3, _⟩ => show win0_2.index t (3 : Fin 4) * 128 + 1 * d.val = d.val; omega

theorem iblk3_apply (c : Dev nD) (t : Fin cfg0.N) (n : Fin 1024) (h : Fin 8) (d : Fin 128) :
    (iblk m c 3 t : Vec Ideal S1x1024x8x128 .f32) (ix4 0 n h d) = V m c main_arg3 (ix4 (bOf t) n h d) := by
  unfold iblk
  rw [View.read_apply]
  show V m c main_arg3 _ = V m c main_arg3 _
  refine congrArg (V m c main_arg3) ?_
  obtain ⟨e0, e1, e2, e3⟩ := (idx_feat t).2.2.2.1
  funext a; apply Fin.ext
  match a with
  | ⟨0, _⟩ => show win0_3.index t (0 : Fin 4) * 1 + 1 * 0 = (grid0.coords t 0).val; omega
  | ⟨1, _⟩ => show win0_3.index t (1 : Fin 4) * 1024 + 1 * n.val = n.val; omega
  | ⟨2, _⟩ => show win0_3.index t (2 : Fin 4) * 8 + 1 * h.val = h.val; omega
  | ⟨3, _⟩ => show win0_3.index t (3 : Fin 4) * 128 + 1 * d.val = d.val; omega

theorem iblk4_apply (c : Dev nD) (t : Fin cfg0.N) (n : Fin 1024) (h : Fin 8) (d : Fin 128) :
    (iblk m c 4 t : Vec Ideal S1x1024x8x128 .f32) (ix4 0 n h d) = V m c main_arg4 (ix4 (bOf t) n h d) := by
  unfold iblk
  rw [View.read_apply]
  show V m c main_arg4 _ = V m c main_arg4 _
  refine congrArg (V m c main_arg4) ?_
  obtain ⟨e0, e1, e2, e3⟩ := (idx_feat t).2.2.2.2
  funext a; apply Fin.ext
  match a with
  | ⟨0, _⟩ => show win0_4.index t (0 : Fin 4) * 1 + 1 * 0 = (grid0.coords t 0).val; omega
  | ⟨1, _⟩ => show win0_4.index t (1 : Fin 4) * 1024 + 1 * n.val = n.val; omega
  | ⟨2, _⟩ => show win0_4.index t (2 : Fin 4) * 8 + 1 * h.val = h.val; omega
  | ⟨3, _⟩ => show win0_4.index t (3 : Fin 4) * 128 + 1 * d.val = d.val; omega

/-! ## The weight and bias blocks are their arrays -/

theorem iblk5_eq (c : Dev nD) (t : Fin cfg0.N) : (iblk m c 5 t : Vec Ideal S128x128 .f32) = V m c main_arg6 := by
  funext j
  unfold iblk
  rw [View.read_apply]
  show V m c main_arg6 _ = V m c main_arg6 _
  refine congrArg (V m c main_arg6) ?_
  obtain ⟨e0, e1⟩ := (idx_par t).1
  funext a; apply Fin.ext
  match a with
  | ⟨0, _⟩ => show win0_5.index t (0 : Fin 2) * 128 + 1 * (j 0).val = (j 0).val; omega
  | ⟨1, _⟩ => show win0_5.index t (1 : Fin 2) * 128 + 1 * (j 1).val = (j 1).val; omega

theorem iblk7_eq (c : Dev nD) (t : Fin cfg0.N) : (iblk m c 7 t : Vec Ideal S128x128 .f32) = V m c main_arg8 := by
  funext j
  unfold iblk
  rw [View.read_apply]
  show V m c main_arg8 _ = V m c main_arg8 _
  refine congrArg (V m c main_arg8) ?_
  obtain ⟨e0, e1⟩ := (idx_par t).2.2.1
  funext a; apply Fin.ext
  match a with
  | ⟨0, _⟩ => show win0_7.index t (0 : Fin 2) * 128 + 1 * (j 0).val = (j 0).val; omega
  | ⟨1, _⟩ => show win0_7.index t (1 : Fin 2) * 128 + 1 * (j 1).val = (j 1).val; omega

theorem iblk6_eq (c : Dev nD) (t : Fin cfg0.N) : (iblk m c 6 t : Vec Ideal S128 .f32) = V m c main_arg7 := by
  funext j
  unfold iblk
  rw [View.read_apply]
  show V m c main_arg7 _ = V m c main_arg7 _
  refine congrArg (V m c main_arg7) ?_
  have e0 := (idx_par t).2.1
  funext a; apply Fin.ext
  match a with
  | ⟨0, _⟩ => show win0_6.index t (0 : Fin 1) * 128 + 1 * (j 0).val = (j 0).val; omega

theorem iblk8_eq (c : Dev nD) (t : Fin cfg0.N) : (iblk m c 8 t : Vec Ideal S128 .f32) = V m c main_arg9 := by
  funext j
  unfold iblk
  rw [View.read_apply]
  show V m c main_arg9 _ = V m c main_arg9 _
  refine congrArg (V m c main_arg9) ?_
  have e0 := (idx_par t).2.2.2
  funext a; apply Fin.ext
  match a with
  | ⟨0, _⟩ => show win0_8.index t (0 : Fin 1) * 128 + 1 * (j 0).val = (j 0).val; omega

/-! ## The head the body cuts out of a feature block -/

/-- Entry [0, n, 0, d] of the slab cut at grid coordinates `i` is entry [0, n, i₁, d] of the block. -/
theorem slab_apply (i : grid0.Coords) (X : Vec Ideal S1x1024x8x128 .f32) (n : Fin 1024) (d : Fin 128) :
    Pieces.slab i X (ix4 0 n 0 d) = X (ix4 0 n (i 1) d) := by
  show X _ = X _
  refine congrArg X ?_
  funext a; apply Fin.ext
  have hk := congrFun (k0_off1_eq i)
  match a with
  | ⟨0, _⟩ => show k0_off1 i 0 + 1 * 0 = 0; rw [hk 0]; rfl
  | ⟨1, _⟩ => show k0_off1 i 1 + 1 * n.val = n.val; rw [hk 1]; show 0 + 1 * n.val = n.val; omega
  | ⟨2, _⟩ => show k0_off1 i 2 + 1 * 0 = (i 1).val; rw [hk 2]; rfl
  | ⟨3, _⟩ => show k0_off1 i 3 + 1 * d.val = d.val; rw [hk 3]; show 0 + 1 * d.val = d.val; omega

/-- The projection of a slab cut from batch entry `b` of an array is the array's projection at (b, head). -/
theorem projSlab_eq (i : grid0.Coords) (b : Fin 4) (X : Vec Ideal S1x1024x8x128 .f32) (A : Feat) (W W' : Mat) (β β' : Bias)
    (hX : ∀ (n : Fin 1024) (h : Fin 8) (d : Fin 128), X (ix4 0 n h d) = A (ix4 b n h d)) (hW : W = W') (hβ : β = β') :
    projSlab (Pieces.slab i X) W β = proj A W' β' b (i 1) := by
  subst hW hβ
  funext n e
  unfold projSlab proj
  exact congrArg (· + β (ix1 e)) (Finset.sum_congr rfl fun d _ =>
    congrArg (· * W (ix2 d e)) ((slab_apply i X n d).trans (hX n (i 1) d)))

theorem proj_blk0 (c : Dev nD) (t : Fin cfg0.N) :
    projSlab (Pieces.slab (grid0.coords t) (iblk m c 0 t)) (iblk m c 5 t) (iblk m c 6 t)
      = proj (V m c main_arg0) (V m c main_arg6) (V m c main_arg7) (bOf t) (hOf t) :=
  projSlab_eq (grid0.coords t) (bOf t) _ _ _ _ _ _ (iblk0_apply m c t) (iblk5_eq m c t) (iblk6_eq m c t)

theorem proj_blk1 (c : Dev nD) (t : Fin cfg0.N) :
    projSlab (Pieces.slab (grid0.coords t) (iblk m c 1 t)) (iblk m c 5 t) (iblk m c 6 t)
      = proj (V m c main_arg1) (V m c main_arg6) (V m c main_arg7) (bOf t) (hOf t) :=
  projSlab_eq (grid0.coords t) (bOf t) _ _ _ _ _ _ (iblk1_apply m c t) (iblk5_eq m c t) (iblk6_eq m c t)

theorem proj_blk2 (c : Dev nD) (t : Fin cfg0.N) :
    projSlab (Pieces.slab (grid0.coords t) (iblk m c 2 t)) (iblk m c 5 t) (iblk m c 6 t)
      = proj (V m c main_arg2) (V m c main_arg6) (V m c main_arg7) (bOf t) (hOf t) :=
  projSlab_eq (grid0.coords t) (bOf t) _ _ _ _ _ _ (iblk2_apply m c t) (iblk5_eq m c t) (iblk6_eq m c t)

theorem proj_blk3 (c : Dev nD) (t : Fin cfg0.N) :
    projSlab (Pieces.slab (grid0.coords t) (iblk m c 3 t)) (iblk m c 7 t) (iblk m c 8 t)
      = proj (V m c main_arg3) (V m c main_arg8) (V m c main_arg9) (bOf t) (hOf t) :=
  projSlab_eq (grid0.coords t) (bOf t) _ _ _ _ _ _ (iblk3_apply m c t) (iblk7_eq m c t) (iblk8_eq m c t)

theorem proj_blk4 (c : Dev nD) (t : Fin cfg0.N) :
    projSlab (Pieces.slab (grid0.coords t) (iblk m c 4 t)) (iblk m c 7 t) (iblk m c 8 t)
      = proj (V m c main_arg4) (V m c main_arg8) (V m c main_arg9) (bOf t) (hOf t) :=
  projSlab_eq (grid0.coords t) (bOf t) _ _ _ _ _ _ (iblk4_apply m c t) (iblk7_eq m c t) (iblk8_eq m c t)

end Cert.CrossAttn.Blocks

end
-- ==== Proof.KernelArrays.lean ====
/-
  From blocks to arrays: what the two result arrays hold after the kernel's run.

  Grid point t = (b, h) writes back one block of each output: rows [b, ·, 128·h + ·] of the feature array
  [4, 1024, 1024] and the slice [b, h, ·, ·] of the weight array [4, 8, 1024, 1024].  Given what the body stores
  (the two statements `FeaturesPayload` and `WeightsPayload` about its arithmetic, proved apart from the block
  geometry), each written block is that block of ONE whole-array function of the argument arrays — the
  specification's `features` and `weights` —, because a loaded block is a part of its array and the head the body
  cuts out is the point's own.  The 32 blocks of each output are disjoint and cover it (every (batch entry, head)
  pair is some point's), so after the run each result array IS that function.
-/
import proofs.«123841_j88502096101977_2_alg».proof.Proof.BlockReads

noncomputable section

open Idealize.ShloMosaic Idealize.ShloMosaic.TcCoe Idealize.SL.Sem Idealize.ShloMosaic.ValueIdx
open Idealize.ShloMosaic.Pipeline (Dat)

namespace Cert.CrossAttn.Arrays

open Cert.KernelIdeal Cert.KernelIdeal.Gen Cert.CrossAttn Cert.CrossAttn.Blocks

variable (m : (ℓ : Loc nD τ sig) → Buf (Elt Ideal) ℓ) (ρ : Dev nD → PrngReg)

/-- The body's first store, at row t and lane e of its block: the visual values of the head mixed by the softmax of the
    text-query-against-visual-key scores, as a function of the loaded weights, biases and head slabs. -/
def FeaturesPayload : Prop :=
  ∀ (x5 x7 : Vec Ideal S128x128 .f32) (x6 x8 : Vec Ideal S128 .f32) (vk vv tq : Vec Ideal S1x1024x1x128 .f32)
    (t : Fin 1024) (e : Fin 128),
    k0_pay8 (F := Ideal) (k0_pay3 x7) x8 (k0_pay5 x5 x6 vk) (k0_pay6 x5 x6 vv) (k0_pay7 tq) (ix3 0 t e)
      = mix (softmax (score (projSlab tq x7 x8) (projSlab vk x5 x6))) (projSlab vv x5 x6) t e

/-- The body's second store, at row r and column c of its block: the softmax of the visual-query-against-text-key scores. -/
def WeightsPayload : Prop :=
  ∀ (x5 x7 : Vec Ideal S128x128 .f32) (x6 x8 : Vec Ideal S128 .f32) (vq tk : Vec Ideal S1x1024x1x128 .f32)
    (r c : Fin 1024),
    k0_pay1 (F := Ideal) (k0_pay9 (k0_pay3 x7) x8 (k0_pay4 x5 x6 vq) tk) (k0_pay10 (k0_pay3 x7) x8 (k0_pay4 x5 x6 vq) tk) (ix4 0 0 r c)
      = softmax (score (projSlab vq x5 x6) (projSlab tk x7 x8)) r c

/-- The first result as a function of the launch arrays: visual_key, visual_value, text_query, the two weight matrices
    and biases. -/
abbrev featuresOf (c : Dev nD) : S4x1024x1024.Idx → EReal :=
  features (V m c main_arg1) (V m c main_arg2) (V m c main_arg3) (V m c main_arg6) (V m c main_arg7) (V m c main_arg8) (V m c main_arg9)

/-- The second result as a function of the launch arrays: visual_query, text_key, the weights and biases. -/
abbrev weightsOf (c : Dev nD) : S4x8x1024x1024.Idx → EReal :=
  weights (V m c main_arg0) (V m c main_arg4) (V m c main_arg6) (V m c main_arg7) (V m c main_arg8) (V m c main_arg9)

/-! ## The weight array: block (b, h) is the slice [b, h, ·, ·] -/

theorem emb10 (t : Fin cfg0.N) (r cc : Fin 1024) :
    ((cfg0.win 10).blk t).view.emb (ix4 0 0 r cc) = (ix4 (bOf t) (hOf t) r cc : S4x8x1024x1024.Idx) := by
  obtain ⟨e0, e1, e2, e3⟩ := (idx_out t).2
  funext a; apply Fin.ext
  match a with
  | ⟨0, _⟩ => show win0_10.index t (0 : Fin 4) * 1 + 1 * 0 = (grid0.coords t 0).val; omega
  | ⟨1, _⟩ => show win0_10.index t (1 : Fin 4) * 1 + 1 * 0 = (grid0.coords t 1).val; omega
  | ⟨2, _⟩ => show win0_10.index t (2 : Fin 4) * 1024 + 1 * r.val = r.val; omega
  | ⟨3, _⟩ => show win0_10.index t (3 : Fin 4) * 1024 + 1 * cc.val = cc.val; omega

/-- What point t writes back to the weight array is block t of `weights` of the launch arrays. -/
theorem flushed10_eq (hpay : WeightsPayload) (c : Dev nD) (t : Fin cfg0.N) :
    (dats m 0 c).flushed 10 t = ((cfg0.win 10).blk t).view.read (Elt Ideal) (weightsOf m c) := by
  rw [Value.flushed10_A, Pieces.out10]
  funext y
  obtain ⟨y0, y1, r, cc, rfl⟩ : ∃ (y0 y1 : Fin 1) (r cc : Fin 1024), y = (ix4 y0 y1 r cc : S1x1x1024x1024.Idx) :=
    ⟨y 0, y 1, y 2, y 3, eq_ix4 y⟩
  obtain rfl : y0 = 0 := Subsingleton.elim _ _
  obtain rfl : y1 = 0 := Subsingleton.elim _ _
  rw [View.read_apply]
  show k0_pay1 (F := Ideal) _ _ (ix4 0 0 r cc) = weightsOf m c (((cfg0.win 10).blk t).view.emb (ix4 0 0 r cc))
  rw [emb10, hpay, proj_blk0, proj_blk4]
  rfl

theorem mem_blk10 (t : Fin cfg0.N) (i : S4x8x1024x1024.Idx) :
    i ∈ ((cfg0.win 10).blk t).view.set ↔ ∀ a : Fin 4, win0_10.index t a * S1x1x1024x1024.size a ≤ (i a).val ∧ (i a).val < win0_10.index t a * S1x1x1024x1024.size a + S1x1x1024x1024.size a := by
  show i ∈ ((View.whole main_v0_1).slice (win0_10.rect t)).set ↔ _
  rw [View.set_slice_whole, Rect.mem_set_unit]
  exact Iff.rfl

/-- Every index of the weight array is in the block of the point (i₀, i₁). -/
theorem cover10 (i : S4x8x1024x1024.Idx) :
    ∃ t : Fin cfg0.N, (cfg0.win 10).flush t = true ∧ i ∈ ((cfg0.win 10).blk t).view.set := by
  obtain ⟨t, hb, hh⟩ := point_of ⟨(i 0).val, (i 0).isLt⟩ ⟨(i 1).val, (i 1).isLt⟩
  obtain ⟨e0, e1, e2, e3⟩ := (idx_out t).2
  refine ⟨t, flush0_10 t, ?_⟩
  rw [mem_blk10]
  have h2 : (i 2).val < 1024 := (i 2).isLt
  have h3 : (i 3).val < 1024 := (i 3).isLt
  have hb' : (grid0.coords t 0).val = (i 0).val := hb
  have hh' : (grid0.coords t 1).val = (i 1).val := hh
  intro a
  match a with
  | ⟨0, _⟩ => show win0_10.index t (0 : Fin 4) * 1 ≤ (i 0).val ∧ (i 0).val < win0_10.index t (0 : Fin 4) * 1 + 1; omega
  | ⟨1, _⟩ => show win0_10.index t (1 : Fin 4) * 1 ≤ (i 1).val ∧ (i 1).val < win0_10.index t (1 : Fin 4) * 1 + 1; omega
  | ⟨2, _⟩ => show win0_10.index t (2 : Fin 4) * 1024 ≤ (i 2).val ∧ (i 2).val < win0_10.index t (2 : Fin 4) * 1024 + 1024; omega
  | ⟨3, _⟩ => show win0_10.index t (3 : Fin 4) * 1024 ≤ (i 3).val ∧ (i 3).val < win0_10.index t (3 : Fin 4) * 1024 + 1024; omega

/-- After the run the weight array is `weights` of the launch arrays. -/
theorem final10 (hpay : WeightsPayload) (c : Dev nD) : (dats m 0 c).arrAt 10 cfg0.N = weightsOf m c :=
  (dats m 0 c).arrAt_eq_of_cover 10 (weightsOf m c) (fun t _ => flushed10_eq m hpay c t) cover10

/-! ## The feature array: block (b, h) is the columns 128·h … 128·h + 127 of batch entry b -/

/-- Column 128·h + e of the flattened (head, feature) axis. -/
def colOf (h : Fin 8) (e : Fin 128) : Fin 1024 := ⟨h.val * 128 + e.val, by have := h.isLt; have := e.isLt; omega⟩

theorem headOf_colOf (h : Fin 8) (e : Fin 128) : headOf (colOf h e) = h :=
  Fin.ext (by show (h.val * 128 + e.val) / 128 = h.val; have := e.isLt; omega)

theorem laneOf_colOf (h : Fin 8) (e : Fin 128) : laneOf (colOf h e) = e :=
  Fin.ext (by show (h.val * 128 + e.val) % 128 = e.val; have := e.isLt; omega)

theorem emb9 (t : Fin cfg0.N) (r : Fin 1024) (e : Fin 128) :
    ((cfg0.win 9).blk t).view.emb (ix3 0 r e) = (ix3 (bOf t) r (colOf (hOf t) e) : S4x1024x1024.Idx) := by
  obtain ⟨e0, e1, e2⟩ := (idx_out t).1
  funext a; apply Fin.ext
  match a with
  | ⟨0, _⟩ => show win0_9.index t (0 : Fin 3) * 1 + 1 * 0 = (grid0.coords t 0).val; omega
  | ⟨1, _⟩ => show win0_9.index t (1 : Fin 3) * 1024 + 1 * r.val = r.val; omega
  | ⟨2, _⟩ => show win0_9.index t (2 : Fin 3) * 128 + 1 * e.val = (grid0.coords t 1).val * 128 + e.val; omega

/-- What point t writes back to the feature array is block t of `features` of the launch arrays. -/
theorem flushed9_eq (hpay : FeaturesPayload) (c : Dev nD) (t : Fin cfg0.N) :
    (dats m 0 c).flushed 9 t = ((cfg0.win 9).blk t).view.read (Elt Ideal) (featuresOf m c) := by
  rw [Value.flushed9_A, Pieces.out9]
  funext y
  obtain ⟨y0, r, e, rfl⟩ : ∃ (y0 : Fin 1) (r : Fin 1024) (e : Fin 128), y = (ix3 y0 r e : S1x1024x128.Idx) :=
    ⟨y 0, y 1, y 2, eq_ix3 y⟩
  obtain rfl : y0 = 0 := Subsingleton.elim _ _
  rw [View.read_apply]
  show k0_pay8 (F := Ideal) _ _ _ _ _ (ix3 0 r e) = featuresOf m c (((cfg0.win 9).blk t).view.emb (ix3 0 r e))
  rw [emb9, hpay, proj_blk3, proj_blk1, proj_blk2]
  unfold featuresOf
  rw [features_ix, headOf_colOf, laneOf_colOf]
  rfl

theorem mem_blk9 (t : Fin cfg0.N) (i : S4x1024x1024.Idx) :
    i ∈ ((cfg0.win 9).blk t).view.set ↔ ∀ a : Fin 3, win0_9.index t a * S1x1024x128.size a ≤ (i a).val ∧ (i a).val < win0_9.index t a * S1x1024x128.size a + S1x1024x128.size a := by
  show i ∈ ((View.whole main_v0_0).slice (win0_9.rect t)).set ↔ _
  rw [View.set_slice_whole, Rect.mem_set_unit]
  exact Iff.rfl

/-- Every index of the feature array is in the block of the point (i₀, i₂ / 128). -/
theorem cover9 (i : S4x1024x1024.Idx) :
    ∃ t : Fin cfg0.N, (cfg0.win 9).flush t = true ∧ i ∈ ((cfg0.win 9).blk t).view.set := by
  have h1 : (i 1).val < 1024 := (i 1).isLt
  have h2 : (i 2).val < 1024 := (i 2).isLt
  obtain ⟨t, hb, hh⟩ := point_of ⟨(i 0).val, (i 0).isLt⟩ ⟨(i 2).val / 128, by omega⟩
  obtain ⟨e0, e1, e2⟩ := (idx_out t).1
  refine ⟨t, flush0_9 t, ?_⟩
  rw [mem_blk9]
  have hb' : (grid0.coords t 0).val = (i 0).val := hb
  have hh' : (grid0.coords t 1).val = (i 2).val / 128 := hh
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 128 ≤ (i 2).val ∧ (i 2).val < win0_9.index t (2 : Fin 3) * 128 + 128; omega

/-- After the run the feature array is `features` of the launch arrays. -/
theorem final9 (hpay : FeaturesPayload) (c : Dev nD) : (dats m 0 c).arrAt 9 cfg0.N = featuresOf m c :=
  (dats m 0 c).arrAt_eq_of_cover 9 (featuresOf m c) (fun t _ => flushed9_eq m hpay c t) cover9

/-! ## The run, read -/

/-- Every weakly fair execution of the idealized kernel program terminates with the two result arrays at the
    specification's functions of the launch arrays and the arguments unchanged. -/
theorem run (hf : FeaturesPayload) (hw : WeightsPayload) :
    θ_run defs (onTc (τ := τ) (main (F := Ideal))) ⟨m, fun _ => 0, ρ⟩ fun r => ∀ c : Dev nD,
      r.2.mem ((c : Thread nD τ).loc main_v0_0) = featuresOf m c
      ∧ r.2.mem ((c : Thread nD τ).loc main_v0_1) = weightsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final9 m hf c), (h c).2.1.trans (final10 m hw c), (h c).2.2⟩)
    (Value.run_blocks m ρ)

end Cert.CrossAttn.Arrays

end
-- ==== Proof.BodyLayout.lean ====
/-
  Layout operations of the kernel body read at an index given by coordinates.

  A head's slab [1, 1024, 1, 128] is viewed as a matrix [1024, 128] by two reshapes; a bias [128] becomes a row
  [1, 128] broadcast down 1024 rows; a vector of row statistics [1024] becomes a column [1024, 1] broadcast across
  1024 columns; and a result matrix gains leading unit axes before it is stored.  Each reads one element of its
  operand, named here by coordinates.
-/
import Idealize.ShloMosaic.Lib.ValueIdx
import Idealize.ShloMosaic.Lib.Pipeline.Value
import Idealize.ShloMosaic.Lib.ValueLayout

namespace Cert.CrossAttn.Body

open Idealize.ShloMosaic Idealize.ShloMosaic.ValueIdx

variable {α : Type}

/-- A slab [1, 1024, 1, 128] viewed as [1024, 1, 128] and then as [1024, 128] reads, at (n, d), the slab at
    (0, n, 0, d): the three indices have the same row-major position n · 128 + d. -/
theorem slab_apply (x : (⟨4, ![1, 1024, 1, 128]⟩ : Shape).Idx → α)
    (h1 : (⟨4, ![1, 1024, 1, 128]⟩ : Shape).ShapeCasts ⟨3, ![1024, 1, 128]⟩)
    (h2 : (⟨3, ![1024, 1, 128]⟩ : Shape).ShapeCasts ⟨2, ![1024, 128]⟩) (n : Fin 1024) (d : Fin 128) :
    shapeCast ⟨2, ![1024, 128]⟩ (shapeCast ⟨3, ![1024, 1, 128]⟩ x h1) h2 (ix2 n d)
      = x (ix4 (0 : Fin 1) n (0 : Fin 1) d) := by
  refine (shapeCast_apply _ h2 (ix2 n d) (ix3 n (0 : Fin 1) d) ?_).trans ?_
  · rw [Shape.rowMajor_val_three, Shape.rowMajor_val_two]
    show (n.val * 1 + 0) * 128 + d.val = n.val * 128 + d.val
    rw [Nat.mul_one, Nat.add_zero]
  · refine shapeCast_apply x h1 (ix3 n (0 : Fin 1) d) (ix4 (0 : Fin 1) n (0 : Fin 1) d) ?_
    rw [Shape.rowMajor_val_four, Shape.rowMajor_val_three]
    show ((0 * 1024 + n.val) * 1 + 0) * 128 + d.val = (n.val * 1 + 0) * 128 + d.val
    rw [Nat.zero_mul, Nat.zero_add]

/-- A bias [128] viewed as one row [1, 128] and broadcast down 1024 rows reads, at (n, e), the bias at e. -/
theorem bias_apply (b : (⟨1, ![128]⟩ : Shape).Idx → α)
    (h1 : (⟨1, ![128]⟩ : Shape).ShapeCasts ⟨2, ![1, 128]⟩)
    (h2 : (⟨2, ![1, 128]⟩ : Shape).Broadcasts ⟨2, ![1024, 128]⟩) (n : Fin 1024) (e : Fin 128) :
    broadcastTo ⟨2, ![1024, 128]⟩ (shapeCast ⟨2, ![1, 128]⟩ b h1) h2 (ix2 n e) = b (ix1 e) :=
  (broadcastTo_1b_ab_apply _ h2 n e).trans (shapeCast_a_1a_apply b h1 (0 : Fin 1) e)

/-- A vector [1024] viewed as one column [1024, 1] and broadcast across 1024 columns reads, at (r, c), the vector
    at r. -/
theorem column_apply (v : (⟨1, ![1024]⟩ : Shape).Idx → α)
    (h1 : (⟨1, ![1024]⟩ : Shape).ShapeCasts ⟨2, ![1024, 1]⟩)
    (h2 : (⟨2, ![1024, 1]⟩ : Shape).Broadcasts ⟨2, ![1024, 1024]⟩) (r c : Fin 1024) :
    broadcastTo ⟨2, ![1024, 1024]⟩ (shapeCast ⟨2, ![1024, 1]⟩ v h1) h2 (ix2 r c) = v (ix1 r) := by
  refine (broadcastTo_apply _ h2 (ix2 r c) (ix2 r (0 : Fin 1)) fun ax => ?_).trans ?_
  · match ax with
    | ⟨0, _⟩ => rfl
    | ⟨1, _⟩ => rfl
  · refine shapeCast_apply v h1 (ix2 r (0 : Fin 1)) (ix1 r) ?_
    rw [Shape.rowMajor_val_two, Shape.rowMajor_val_one]
    show r.val = r.val * 1 + 0
    rw [Nat.mul_one, Nat.add_zero]

/-- A matrix [1024, 128] stored as a block [1, 1024, 128] reads, at (0, t, e), the matrix at (t, e). -/
theorem block3_apply (v : (⟨2, ![1024, 128]⟩ : Shape).Idx → α)
    (h : (⟨2, ![1024, 128]⟩ : Shape).ShapeCasts ⟨3, ![1, 1024, 128]⟩) (t : Fin 1024) (e : Fin 128) :
    shapeCast ⟨3, ![1, 1024, 128]⟩ v h (ix3 (0 : Fin 1) t e) = v (ix2 t e) :=
  shapeCast_ab_1ab_apply v h (0 : Fin 1) t e

/-- A matrix [1024, 1024] stored as a block [1, 1, 1024, 1024] reads, at (0, 0, r, c), the matrix at (r, c). -/
theorem block4_apply (v : (⟨2, ![1024, 1024]⟩ : Shape).Idx → α)
    (h : (⟨2, ![1024, 1024]⟩ : Shape).ShapeCasts ⟨4, ![1, 1, 1024, 1024]⟩) (r c : Fin 1024) :
    shapeCast ⟨4, ![1, 1, 1024, 1024]⟩ v h (ix4 (0 : Fin 1) (0 : Fin 1) r c) = v (ix2 r c) := by
  refine shapeCast_apply v h _ _ ?_
  rw [Shape.rowMajor_val_four, Shape.rowMajor_val_two]
  show r.val * 1024 + c.val = ((0 * 1 + 0) * 1024 + r.val) * 1024 + c.val
  omega

end Cert.CrossAttn.Body
-- ==== Proof.BodyMatmul.lean ====
/-
  The kernel body's three matrix products read at an index, each accumulated into the zero matrix:
    a [1024, 128] matrix times a [128, 128] weight matrix            (l · w)[n, e] = ∑ k, l[n, k] · w[k, e];
    a [1024, 128] matrix times the transpose of another              (q · kᵀ)[r, c] = ∑ k, q[r, k] · k'[c, k];
    a [1024, 1024] matrix times a [1024, 128] matrix                 (p · v)[r, e] = ∑ k, p[r, k] · v[k, e].
  At the extended reals the product is the accumulator plus the sum over the one contracted axis; the contraction
  index is re-indexed by its one coordinate and the operands' indices are named by coordinates.
-/
import proofs.«123841_j88502096101977_2_alg».proof.Proof.Gen.KernelIdeal.Skeleton
import Idealize.ShloMosaic.PureOps.Ideal.Laws
import Idealize.ShloMosaic.Lib.ValueIdx

namespace Cert.CrossAttn.Body

open Idealize.ShloMosaic Idealize.ShloMosaic.ValueIdx Cert.KernelIdeal Cert.KernelIdeal.Gen

variable {φ₁ φ₂ : FTy}

/-! ### [1024, 128] × [128, 128] -/

theorem projDot_lhs0 (j : S1024x128.Idx) (q : dot_S1024x128_S128x128_S1024x128_1_0_0_1_n_n.contr.Idx) :
    (dot_S1024x128_S128x128_S1024x128_1_0_0_1_n_n.lhsIdx j q 0).val = (j 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
theorem projDot_lhs1 (j : S1024x128.Idx) (q : dot_S1024x128_S128x128_S1024x128_1_0_0_1_n_n.contr.Idx) :
    (dot_S1024x128_S128x128_S1024x128_1_0_0_1_n_n.lhsIdx j q 1).val = (q ⟨0, by decide⟩).val :=
  dot_S1024x128_S128x128_S1024x128_1_0_0_1_n_n.lhsIdx_val_of_single rfl j q
theorem projDot_rhs0 (j : S1024x128.Idx) (q : dot_S1024x128_S128x128_S1024x128_1_0_0_1_n_n.contr.Idx) :
    (dot_S1024x128_S128x128_S1024x128_1_0_0_1_n_n.rhsIdx j q 0).val = (q ⟨0, by decide⟩).val :=
  dot_S1024x128_S128x128_S1024x128_1_0_0_1_n_n.rhsIdx_val_of_single rfl j q
theorem projDot_rhs1 (j : S1024x128.Idx) (q : dot_S1024x128_S128x128_S1024x128_1_0_0_1_n_n.contr.Idx) :
    (dot_S1024x128_S128x128_S1024x128_1_0_0_1_n_n.rhsIdx j q 1).val = (j 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- A [1024, 128] matrix times a [128, 128] one, into zero, at (n, e). -/
theorem projDot_apply (prec : Option ContractPrecision) (l : FVec Ideal S1024x128 φ₁) (w : FVec Ideal S128x128 φ₂)
    (n : Fin 1024) (e : Fin 128) :
    matmul dot_S1024x128_S128x128_S1024x128_1_0_0_1_n_n prec l w (constant S1024x128 .f32 0x00000000#32) (ix2 n e)
      = ∑ k : Fin 128, l (ix2 n k) * w (ix2 k e) := by
  refine (Ideal.matmul_constant_zero_apply dot_S1024x128_S128x128_S1024x128_1_0_0_1_n_n prec l w (ix2 n e)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 n e) ((contrEquiv1 dot_S1024x128_S128x128_S1024x128_1_0_0_1_n_n 128 rfl rfl).symm k) = ix2 n k :=
    funext fun a => Fin.ext (by
      match a with
      | ⟨0, _⟩ => exact projDot_lhs0 _ _
      | ⟨1, _⟩ => exact (projDot_lhs1 _ _).trans hk)
  have er : dot_S1024x128_S128x128_S1024x128_1_0_0_1_n_n.rhsIdx (ix2 n e) ((contrEquiv1 dot_S1024x128_S128x128_S1024x128_1_0_0_1_n_n 128 rfl rfl).symm k) = ix2 k e :=
    funext fun a => Fin.ext (by
      match a with
      | ⟨0, _⟩ => exact (projDot_rhs0 _ _).trans hk
      | ⟨1, _⟩ => exact projDot_rhs1 _ _)
  rw [el, er]

/-! ### [1024, 128] × [1024, 128]ᵀ -/

theorem scoreDot_lhs0 (j : S1024x1024.Idx) (q : dot_S1024x128_S1024x128_S1024x1024_1_1_0_0_n_n.contr.Idx) :
    (dot_S1024x128_S1024x128_S1024x1024_1_1_0_0_n_n.lhsIdx j q 0).val = (j 0).val := by
  unfold DotDims.lhsIdx
  rw [dif_neg (show ¬(0 : Fin S1024x128.rank) ∈ dot_S1024x128_S1024x128_S1024x1024_1_1_0_0_n_n.lhsBatch by decide),
    dif_pos (show (0 : Fin S1024x128.rank) ∈ dot_S1024x128_S1024x128_S1024x1024_1_1_0_0_n_n.lhsNonContracting by decide)]
  rfl
theorem scoreDot_lhs1 (j : S1024x1024.Idx) (q : dot_S1024x128_S1024x128_S1024x1024_1_1_0_0_n_n.contr.Idx) :
    (dot_S1024x128_S1024x128_S1024x1024_1_1_0_0_n_n.lhsIdx j q 1).val = (q ⟨0, by decide⟩).val :=
  dot_S1024x128_S1024x128_S1024x1024_1_1_0_0_n_n.lhsIdx_val_of_single rfl j q
theorem scoreDot_rhs0 (j : S1024x1024.Idx) (q : dot_S1024x128_S1024x128_S1024x1024_1_1_0_0_n_n.contr.Idx) :
    (dot_S1024x128_S1024x128_S1024x1024_1_1_0_0_n_n.rhsIdx j q 0).val = (j 1).val := by
  unfold DotDims.rhsIdx
  rw [dif_neg (show ¬(0 : Fin S1024x128.rank) ∈ dot_S1024x128_S1024x128_S1024x1024_1_1_0_0_n_n.rhsBatch by decide),
    dif_pos (show (0 : Fin S1024x128.rank) ∈ dot_S1024x128_S1024x128_S1024x1024_1_1_0_0_n_n.rhsNonContracting by decide)]
  rfl
theorem scoreDot_rhs1 (j : S1024x1024.Idx) (q : dot_S1024x128_S1024x128_S1024x1024_1_1_0_0_n_n.contr.Idx) :
    (dot_S1024x128_S1024x128_S1024x1024_1_1_0_0_n_n.rhsIdx j q 1).val = (q ⟨0, by decide⟩).val :=
  dot_S1024x128_S1024x128_S1024x1024_1_1_0_0_n_n.rhsIdx_val_of_single rfl j q

/-- The rows of one [1024, 128] matrix against the rows of another, into zero, at (r, c). -/
theorem scoreDot_apply (prec : Option ContractPrecision) (l : FVec Ideal S1024x128 φ₁) (m : FVec Ideal S1024x128 φ₂)
    (r c : Fin 1024) :
    matmul dot_S1024x128_S1024x128_S1024x1024_1_1_0_0_n_n prec l m (constant S1024x1024 .f32 0x00000000#32) (ix2 r c)
      = ∑ k : Fin 128, l (ix2 r k) * m (ix2 c k) := by
  refine (Ideal.matmul_constant_zero_apply dot_S1024x128_S1024x128_S1024x1024_1_1_0_0_n_n prec l m (ix2 r c)).trans ?_
  rw [← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 r c) ((contrEquiv1 dot_S1024x128_S1024x128_S1024x1024_1_1_0_0_n_n 128 rfl rfl).symm k) = ix2 r k :=
    funext fun a => Fin.ext (by
      match a with
      | ⟨0, _⟩ => exact scoreDot_lhs0 _ _
      | ⟨1, _⟩ => exact (scoreDot_lhs1 _ _).trans hk)
  have er : dot_S1024x128_S1024x128_S1024x1024_1_1_0_0_n_n.rhsIdx (ix2 r c) ((contrEquiv1 dot_S1024x128_S1024x128_S1024x1024_1_1_0_0_n_n 128 rfl rfl).symm k) = ix2 c k :=
    funext fun a => Fin.ext (by
      match a with
      | ⟨0, _⟩ => exact scoreDot_rhs0 _ _
      | ⟨1, _⟩ => exact (scoreDot_rhs1 _ _).trans hk)
  rw [el, er]

/-! ### [1024, 1024] × [1024, 128] -/

theorem mixDot_lhs0 (j : S1024x128.Idx) (q : dot_S1024x1024_S1024x128_S1024x128_1_0_0_1_n_n.contr.Idx) :
    (dot_S1024x1024_S1024x128_S1024x128_1_0_0_1_n_n.lhsIdx j q 0).val = (j 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
theorem mixDot_lhs1 (j : S1024x128.Idx) (q : dot_S1024x1024_S1024x128_S1024x128_1_0_0_1_n_n.contr.Idx) :
    (dot_S1024x1024_S1024x128_S1024x128_1_0_0_1_n_n.lhsIdx j q 1).val = (q ⟨0, by decide⟩).val :=
  dot_S1024x1024_S1024x128_S1024x128_1_0_0_1_n_n.lhsIdx_val_of_single rfl j q
theorem mixDot_rhs0 (j : S1024x128.Idx) (q : dot_S1024x1024_S1024x128_S1024x128_1_0_0_1_n_n.contr.Idx) :
    (dot_S1024x1024_S1024x128_S1024x128_1_0_0_1_n_n.rhsIdx j q 0).val = (q ⟨0, by decide⟩).val :=
  dot_S1024x1024_S1024x128_S1024x128_1_0_0_1_n_n.rhsIdx_val_of_single rfl j q
theorem mixDot_rhs1 (j : S1024x128.Idx) (q : dot_S1024x1024_S1024x128_S1024x128_1_0_0_1_n_n.contr.Idx) :
    (dot_S1024x1024_S1024x128_S1024x128_1_0_0_1_n_n.rhsIdx j q 1).val = (j 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- A [1024, 1024] matrix times a [1024, 128] one, into zero, at (r, e). -/
theorem mixDot_apply (prec : Option ContractPrecision) (p : FVec Ideal S1024x1024 φ₁) (v : FVec Ideal S1024x128 φ₂)
    (r : Fin 1024) (e : Fin 128) :
    matmul dot_S1024x1024_S1024x128_S1024x128_1_0_0_1_n_n prec p v (constant S1024x128 .f32 0x00000000#32) (ix2 r e)
      = ∑ k : Fin 1024, p (ix2 r k) * v (ix2 k e) := by
  refine (Ideal.matmul_constant_zero_apply dot_S1024x1024_S1024x128_S1024x128_1_0_0_1_n_n prec p v (ix2 r e)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 r e) ((contrEquiv1 dot_S1024x1024_S1024x128_S1024x128_1_0_0_1_n_n 1024 rfl rfl).symm k) = ix2 r k :=
    funext fun a => Fin.ext (by
      match a with
      | ⟨0, _⟩ => exact mixDot_lhs0 _ _
      | ⟨1, _⟩ => exact (mixDot_lhs1 _ _).trans hk)
  have er : dot_S1024x1024_S1024x128_S1024x128_1_0_0_1_n_n.rhsIdx (ix2 r e) ((contrEquiv1 dot_S1024x1024_S1024x128_S1024x128_1_0_0_1_n_n 1024 rfl rfl).symm k) = ix2 k e :=
    funext fun a => Fin.ext (by
      match a with
      | ⟨0, _⟩ => exact (mixDot_rhs0 _ _).trans hk
      | ⟨1, _⟩ => exact mixDot_rhs1 _ _)
  rw [el, er]

end Cert.CrossAttn.Body
-- ==== Proof.BodyProj.lean ====
/-
  The kernel body's linear projections read at an index.

  A head's slab [1, 1024, 1, 128], viewed as a [1024, 128] matrix, is multiplied by a [128, 128] weight matrix and a
  bias row is added: at (n, e) this is (∑ d, slab[0, n, 0, d] · W[d, e]) + β[e], the specification's projection of the
  slab.  The roundings of the operands to a narrower format are the identity on the extended reals.
-/
import proofs.«123841_j88502096101977_2_alg».proof.Proof.Gen.KernelIdeal.Skeleton
import proofs.«123841_j88502096101977_2_alg».proof.Proof.Spec
import proofs.«123841_j88502096101977_2_alg».proof.Proof.BodyLayout
import proofs.«123841_j88502096101977_2_alg».proof.Proof.BodyMatmul

namespace Cert.CrossAttn.Body

open Idealize.ShloMosaic Idealize.ShloMosaic.ValueIdx Cert.KernelIdeal Cert.KernelIdeal.Gen Cert.CrossAttn

/-- A matrix that reads a slab, times a matrix that reads a weight matrix, plus the broadcast bias row: the projection
    of the slab. -/
theorem linear_apply {φ ψ : FTy} (X : FVec Ideal S1024x128 φ) (W : FVec Ideal S128x128 ψ) (β : Vec Ideal S128 .f32)
    (slab : Vec Ideal S1x1024x1x128 .f32) (w : Vec Ideal S128x128 .f32)
    (hX : ∀ (n : Fin 1024) (d : Fin 128), X (ix2 n d) = slab (ix4 (0 : Fin 1) n (0 : Fin 1) d))
    (hW : ∀ (d e : Fin 128), W (ix2 d e) = w (ix2 d e))
    (prec : Option ContractPrecision) (h1 : S128.ShapeCasts S1x128) (h2 : S1x128.Broadcasts S1024x128)
    (n : Fin 1024) (e : Fin 128) :
    addf (matmul dot_S1024x128_S128x128_S1024x128_1_0_0_1_n_n prec X W (constant S1024x128 .f32 0x00000000#32))
        (broadcastTo S1024x128 (shapeCast S1x128 β h1) h2) (ix2 n e)
      = projSlab slab w β n e := by
  refine (congrArg₂ (· + ·) (projDot_apply prec X W n e) (bias_apply β h1 h2 n e)).trans ?_
  unfold projSlab
  refine congrArg₂ (· + ·) (Finset.sum_congr rfl fun d _ => ?_) rfl
  exact congrArg₂ (· * ·) (hX n d) (hW d e)

/-- The slab viewed as a matrix, as the kernel reshapes it. -/
theorem pay7_apply (v : Vec Ideal S1x1024x1x128 .f32) (n : Fin 1024) (d : Fin 128) :
    k0_pay7 (F := Ideal) v (ix2 n d) = v (ix4 (0 : Fin 1) n (0 : Fin 1) d) := by
  unfold k0_pay7
  exact slab_apply v _ _ n d

/-- The projected visual query. -/
theorem pay4_apply (x5 : Vec Ideal S128x128 .f32) (x6 : Vec Ideal S128 .f32) (v : Vec Ideal S1x1024x1x128 .f32)
    (n : Fin 1024) (e : Fin 128) : k0_pay4 (F := Ideal) x5 x6 v (ix2 n e) = projSlab v x5 x6 n e := by
  unfold k0_pay4
  exact linear_apply _ _ x6 v x5 (fun n d => slab_apply v _ _ n d) (fun _ _ => rfl) none _ _ n e

/-- The projected visual key. -/
theorem pay5_apply (x5 : Vec Ideal S128x128 .f32) (x6 : Vec Ideal S128 .f32) (v : Vec Ideal S1x1024x1x128 .f32)
    (n : Fin 1024) (e : Fin 128) : k0_pay5 (F := Ideal) x5 x6 v (ix2 n e) = projSlab v x5 x6 n e := by
  unfold k0_pay5
  exact linear_apply _ _ x6 v x5 (fun n d => slab_apply v _ _ n d) (fun _ _ => rfl) none _ _ n e

/-- The projected visual value. -/
theorem pay6_apply (x5 : Vec Ideal S128x128 .f32) (x6 : Vec Ideal S128 .f32) (v : Vec Ideal S1x1024x1x128 .f32)
    (n : Fin 1024) (e : Fin 128) : k0_pay6 (F := Ideal) x5 x6 v (ix2 n e) = projSlab v x5 x6 n e := by
  unfold k0_pay6
  exact linear_apply _ _ x6 v x5 (fun n d => slab_apply v _ _ n d) (fun _ _ => rfl) none _ _ n e

end Cert.CrossAttn.Body
-- ==== Proof.BodyReduce.lean ====
/-
  The kernel body's two row reductions of a [1024, 1024] matrix read at a row: the sum over the row's 1024 columns,
  and the maximum of the row folded from −∞.
-/
import proofs.«123841_j88502096101977_2_alg».proof.Proof.Gen.KernelIdeal.Skeleton
import Idealize.ShloMosaic.PureOps.Ideal.Laws
import Idealize.ShloMosaic.Lib.ValueIdx

namespace Cert.CrossAttn.Body

open Idealize.ShloMosaic Idealize.ShloMosaic.ValueIdx Cert.KernelIdeal Cert.KernelIdeal.Gen

/-- The reduced index r with column k put back is (r, k). -/
theorem lift_row (h : S1024x1024.Reduces [1] S1024) (r : Fin 1024) (k : Fin (S1024x1024.size 1)) :
    h.lift (ix1 r) k = ix2 r (⟨k.val, k.isLt⟩ : Fin 1024) := by
  funext c; apply Fin.ext
  match c with
  | ⟨0, _⟩ => rfl
  | ⟨1, _⟩ => rfl

/-- The sum over axis 1 of a [1024, 1024] matrix, at row r, is the sum of the row's entries. -/
theorem rowSum_apply (src : FVec Ideal S1024x1024 .f32) (h : S1024x1024.Reduces [1] S1024) (hφ : FKind.Formats .f32)
    (hacc : (0x00000000#32 : BitVec 32) = FKind.add.neutral .f32 hφ) (r : Fin 1024) :
    multiReduction (F := Ideal) .add [1] S1024 src 0x00000000#32 h hφ hacc (ix1 r) = ∑ c : Fin 1024, src (ix2 r c) := by
  refine (Ideal.multiReduction_add_single src _ h hφ hacc (ix1 r)).trans ?_
  exact Finset.sum_congr rfl fun k _ => congrArg src (lift_row h r k)

/-- The maximum over axis 1 of a [1024, 1024] matrix from −∞, at row r, is the fold of max over the row's entries. -/
theorem rowMax_apply (src : FVec Ideal S1024x1024 .f32) (h : S1024x1024.Reduces [1] S1024) (hφ : FKind.Formats .f32)
    (hacc : (0xFF800000#32 : BitVec 32) = FKind.maximumf.neutral .f32 hφ) (r : Fin 1024) :
    multiReduction (F := Ideal) .maximumf [1] S1024 src 0xFF800000#32 h hφ hacc (ix1 r)
      = (Finset.univ : Finset (Fin 1024)).fold max (Ideal.ofBits .f32 0xFF800000#32) (fun c => src (ix2 r c)) := by
  refine (Ideal.multiReduction_maximumf_single src _ h hφ hacc (ix1 r)).trans ?_
  have hf : (src ∘ h.lift (ix1 r)) = fun c : Fin 1024 => src (ix2 r c) :=
    funext fun k => congrArg src (lift_row h r k)
  exact congrArg (fun f => Finset.fold max (Ideal.ofBits .f32 0xFF800000#32) f (Finset.univ : Finset (Fin 1024))) hf

end Cert.CrossAttn.Body
-- ==== Proof.BodySoftmax.lean ====
/-
  The kernel body's scaled scores and row-wise softmax read at an index.

  The scores are a product of one matrix with the transpose of another, times the broadcast scale.  The softmax of a
  score matrix S is taken in two steps: E = exp (S − the row maximum, broadcast across the row), then E divided by its
  row sums, broadcast across the row.  Read at (r, c) these are the specification's score, expShift and softmax.
-/
import proofs.«123841_j88502096101977_2_alg».proof.Proof.Gen.KernelIdeal.Skeleton
import proofs.«123841_j88502096101977_2_alg».proof.Proof.Spec
import proofs.«123841_j88502096101977_2_alg».proof.Proof.BodyLayout
import proofs.«123841_j88502096101977_2_alg».proof.Proof.BodyMatmul
import proofs.«123841_j88502096101977_2_alg».proof.Proof.BodyReduce

namespace Cert.CrossAttn.Body

open Idealize.ShloMosaic Idealize.ShloMosaic.ValueIdx Cert.KernelIdeal Cert.KernelIdeal.Gen Cert.CrossAttn

/-- The rows of Q against the rows of K, times the scale. -/
theorem score_apply (Q K : FVec Ideal S1024x128 .f32) (q k : Fin 1024 → Fin 128 → EReal)
    (hQ : ∀ (n : Fin 1024) (d : Fin 128), Q (ix2 n d) = q n d)
    (hK : ∀ (n : Fin 1024) (d : Fin 128), K (ix2 n d) = k n d)
    (prec : Option ContractPrecision) (r c : Fin 1024) :
    mulf (matmul dot_S1024x128_S1024x128_S1024x1024_1_1_0_0_n_n prec Q K (constant S1024x1024 .f32 0x00000000#32))
        (broadcast S1024x1024 (Scalar.ofBits (F := Ideal) .f32 0x3DB504F3#32)) (ix2 r c)
      = score q k r c := by
  have e0 : broadcast S1024x1024 (Scalar.ofBits (F := Ideal) .f32 0x3DB504F3#32) (ix2 r c) = scale := rfl
  refine (congrArg₂ (· * ·) (scoreDot_apply prec Q K r c) e0).trans ?_
  unfold score
  refine congrArg₂ (· * ·) (Finset.sum_congr rfl fun d _ => ?_) rfl
  exact congrArg₂ (· * ·) (hQ r d) (hK c d)

/-- The exponential of an entry less its row's maximum. -/
theorem expShift_apply (S : FVec Ideal S1024x1024 .f32) (s : Fin 1024 → Fin 1024 → EReal)
    (hS : ∀ (r c : Fin 1024), S (ix2 r c) = s r c)
    (h : S1024x1024.Reduces [1] S1024) (hφ : FKind.Formats .f32)
    (hacc : (0xFF800000#32 : BitVec 32) = FKind.maximumf.neutral .f32 hφ)
    (h1 : S1024.ShapeCasts S1024x1) (h2 : S1024x1.Broadcasts S1024x1024) (r c : Fin 1024) :
    exp (subf S (broadcastTo S1024x1024
        (shapeCast S1024x1 (multiReduction (F := Ideal) .maximumf [1] S1024 S 0xFF800000#32 h hφ hacc) h1) h2)) (ix2 r c)
      = expShift s r c := by
  unfold expShift rowMax negInf
  refine congrArg Ideal.exp (congrArg₂ (· - ·) (hS r c) ?_)
  refine (column_apply _ h1 h2 r c).trans ?_
  refine (rowMax_apply S h hφ hacc r).trans ?_
  exact congrArg (fun f => Finset.fold max (Ideal.ofBits .f32 0xFF800000#32) f (Finset.univ : Finset (Fin 1024)))
    (funext fun c' => hS r c')

/-- The shifted exponentials divided by their row's sum. -/
theorem softmax_apply (E : FVec Ideal S1024x1024 .f32) (s : Fin 1024 → Fin 1024 → EReal)
    (hE : ∀ (r c : Fin 1024), E (ix2 r c) = expShift s r c)
    (h : S1024x1024.Reduces [1] S1024) (hφ : FKind.Formats .f32)
    (hacc : (0x00000000#32 : BitVec 32) = FKind.add.neutral .f32 hφ)
    (h1 : S1024.ShapeCasts S1024x1) (h2 : S1024x1.Broadcasts S1024x1024) (r c : Fin 1024) :
    divf E (broadcastTo S1024x1024
        (shapeCast S1024x1 (multiReduction (F := Ideal) .add [1] S1024 E 0x00000000#32 h hφ hacc) h1) h2) (ix2 r c)
      = softmax s r c := by
  unfold softmax
  refine congrArg₂ Ideal.div (hE r c) ?_
  refine (column_apply _ h1 h2 r c).trans ?_
  refine (rowSum_apply E h hφ hacc r).trans ?_
  exact Finset.sum_congr rfl fun c' _ => hE r c'

end Cert.CrossAttn.Body
-- ==== Proof.BodyFeatures.lean ====
/-
  What the kernel stores to its first output, read at an index: the text-over-visual attention weights times the
  projected visual values.

  The stored block is a [1024, 128] matrix with a leading unit axis.  The matrix is the product of the softmax of the
  scaled scores (projected text queries against projected visual keys) with the projected visual values; each step
  is read at an index by its own lemma.
-/
import proofs.«123841_j88502096101977_2_alg».proof.Proof.Gen.KernelIdeal.Skeleton
import proofs.«123841_j88502096101977_2_alg».proof.Proof.Spec
import proofs.«123841_j88502096101977_2_alg».proof.Proof.BodyLayout
import proofs.«123841_j88502096101977_2_alg».proof.Proof.BodyMatmul
import proofs.«123841_j88502096101977_2_alg».proof.Proof.BodyProj
import proofs.«123841_j88502096101977_2_alg».proof.Proof.BodySoftmax

namespace Cert.CrossAttn.Body

open Idealize.ShloMosaic Idealize.ShloMosaic.ValueIdx Cert.KernelIdeal Cert.KernelIdeal.Gen Cert.CrossAttn

/-- What is stored to the first output, at row t and lane e of its [1, 1024, 128] block: x5 the visual weights, x6 the
    visual bias, x7 the text weights, x8 the text bias; vk, vv, tq the loaded head slabs of the visual keys, the visual
    values and the text queries. -/
theorem features_payload (x5 x7 : Vec Ideal S128x128 .f32) (x6 x8 : Vec Ideal S128 .f32)
    (vk vv tq : Vec Ideal S1x1024x1x128 .f32) (t : Fin 1024) (e : Fin 128) :
    k0_pay8 (F := Ideal) (k0_pay3 x7) x8 (k0_pay5 x5 x6 vk) (k0_pay6 x5 x6 vv) (k0_pay7 tq) (ix3 0 t e)
      = mix (softmax (score (projSlab tq x7 x8) (projSlab vk x5 x6))) (projSlab vv x5 x6) t e := by
  unfold k0_pay8
  refine (block3_apply _ _ t e).trans ?_
  refine (mixDot_apply none _ _ t e).trans ?_
  unfold mix
  refine Finset.sum_congr rfl fun c _ => ?_
  refine congrArg₂ (· * ·) ?_ (pay6_apply x5 x6 vv c e)
  refine softmax_apply _ _ (fun r c => ?_) _ _ _ _ _ t c
  refine expShift_apply _ _ (fun r c => ?_) _ _ _ _ _ r c
  refine score_apply _ _ _ _ (fun n d => ?_) (fun n d => pay5_apply x5 x6 vk n d) _ r c
  exact linear_apply (φ := .bf16) (ψ := .bf16) _ (k0_pay3 x7) x8 tq x7 (fun n d => pay7_apply tq n d) (fun _ _ => rfl) none _ _ n d

end Cert.CrossAttn.Body
-- ==== Proof.BodyWeights.lean ====
/-
  What the kernel stores to its second output, read at an index: the visual-over-text attention weights.

  The stored block is a [1024, 1024] matrix with two leading unit axes.  The matrix is the shifted exponentials of the
  scaled scores (projected visual queries against projected text keys) divided by their row sums.
-/
import proofs.«123841_j88502096101977_2_alg».proof.Proof.Gen.KernelIdeal.Skeleton
import proofs.«123841_j88502096101977_2_alg».proof.Proof.Spec
import proofs.«123841_j88502096101977_2_alg».proof.Proof.BodyLayout
import proofs.«123841_j88502096101977_2_alg».proof.Proof.BodyProj
import proofs.«123841_j88502096101977_2_alg».proof.Proof.BodySoftmax

namespace Cert.CrossAttn.Body

open Idealize.ShloMosaic Idealize.ShloMosaic.ValueIdx Cert.KernelIdeal Cert.KernelIdeal.Gen Cert.CrossAttn

/-- The shifted exponentials of the visual-over-text scores. -/
theorem pay9_apply (x5 x7 : Vec Ideal S128x128 .f32) (x6 x8 : Vec Ideal S128 .f32)
    (vq tk : Vec Ideal S1x1024x1x128 .f32) (r c : Fin 1024) :
    k0_pay9 (F := Ideal) (k0_pay3 x7) x8 (k0_pay4 x5 x6 vq) tk (ix2 r c)
      = expShift (score (projSlab vq x5 x6) (projSlab tk x7 x8)) r c := by
  unfold k0_pay9
  refine expShift_apply _ _ (fun r c => ?_) _ _ _ _ _ r c
  refine score_apply _ _ _ _ (fun n d => pay4_apply x5 x6 vq n d) (fun n d => ?_) _ r c
  exact linear_apply (φ := .bf16) (ψ := .bf16) _ (k0_pay3 x7) x8 tk x7 (fun n d => slab_apply tk _ _ n d) (fun _ _ => rfl) none _ _ n d

/-- What is stored to the second output, at row r and column c of its [1, 1, 1024, 1024] block: x5 the visual weights,
    x6 the visual bias, x7 the text weights, x8 the text bias; vq, tk the loaded head slabs of the visual queries and
    the text keys. -/
theorem weights_payload (x5 x7 : Vec Ideal S128x128 .f32) (x6 x8 : Vec Ideal S128 .f32)
    (vq tk : Vec Ideal S1x1024x1x128 .f32) (r c : Fin 1024) :
    k0_pay1 (F := Ideal) (k0_pay9 (k0_pay3 x7) x8 (k0_pay4 x5 x6 vq) tk)
        (k0_pay10 (k0_pay3 x7) x8 (k0_pay4 x5 x6 vq) tk) (ix4 0 0 r c)
      = softmax (score (projSlab vq x5 x6) (projSlab tk x7 x8)) r c := by
  unfold k0_pay1 k0_pay10
  refine (block4_apply _ _ r c).trans ?_
  exact softmax_apply _ _ (fun r c => pay9_apply x5 x7 x6 x8 vq tk r c) _ _ _ _ _ r c

end Cert.CrossAttn.Body
-- ==== Proof.RefProj.lean ====
/-
  The reference's six linear projections are one computation on different arguments: a contraction of the feature
  axis against a [128, 128] matrix, a bias added along the last axis, and a transposition that brings the head axis
  before the node axis.  Read at explicit coordinates (batch b, head h, node n, output feature e) each is
      (∑ d, X[b, n, h, d] · W[d, e]) + β[e],
  which is the specification's `proj`.  (The projection of the text values is computed by the reference and never used.)
-/
import proofs.«123841_j88502096101977_2_alg».proof.Proof.Gen.ReferenceIdeal.Read
import proofs.«123841_j88502096101977_2_alg».proof.Proof.Spec

noncomputable section

namespace Cert.CrossAttn.Ref

open Idealize.ShloMosaic Idealize.ShloMosaic.ValueIdx Cert.ReferenceIdeal Cert.ReferenceIdeal.Read Cert.CrossAttn

/-- The projected and transposed visual query, read at (batch, head, node, feature): the reference contracts the
    feature axis against the weight matrix, adds the bias broadcast along the other axes, and swaps the node and
    head axes. -/
theorem v4_ix (x0 : (⟨S4x1024x8x128, .f32⟩ : BufTy).Contents (Elt Ideal)) (x6 : (⟨S128x128, .f32⟩ : BufTy).Contents (Elt Ideal)) (x7 : (⟨S128, .f32⟩ : BufTy).Contents (Elt Ideal))
    (b : Fin 4) (h : Fin 8) (n : Fin 1024) (e : Fin 128) :
    val_main_v4 (F := Ideal) x0 x6 x7 (ix4 b h n e) = proj x0 x6 x7 b h n e := by
  rw [val_main_v4_apply, val_main_v3_apply, val_main_v0_apply, val_main_v2_apply, val_main_v1_apply]
  have e1 : ∀ k : Fin 128, lidx_main_v0 (idx_main_v4 (ix4 b h n e)) k = ix4 b n h k := fun k =>
    funext fun a => Fin.ext (by match a with | ⟨0, _⟩ => rfl | ⟨1, _⟩ => rfl | ⟨2, _⟩ => rfl | ⟨3, _⟩ => rfl)
  have e2 : ∀ k : Fin 128, ridx_main_v0 (idx_main_v4 (ix4 b h n e)) k = ix2 k e := fun k =>
    funext fun a => Fin.ext (by match a with | ⟨0, _⟩ => rfl | ⟨1, _⟩ => rfl)
  have e3 : idx_main_v1 (idx_main_v2 (idx_main_v4 (ix4 b h n e))) = ix1 e :=
    funext fun a => Fin.ext (by match a with | ⟨0, _⟩ => rfl)
  simp only [e1, e2, e3]
  rfl

/-- The projected and transposed visual key, read at (batch, head, node, feature): the reference contracts the
    feature axis against the weight matrix, adds the bias broadcast along the other axes, and swaps the node and
    head axes. -/
theorem v9_ix (x1 : (⟨S4x1024x8x128, .f32⟩ : BufTy).Contents (Elt Ideal)) (x6 : (⟨S128x128, .f32⟩ : BufTy).Contents (Elt Ideal)) (x7 : (⟨S128, .f32⟩ : BufTy).Contents (Elt Ideal))
    (b : Fin 4) (h : Fin 8) (n : Fin 1024) (e : Fin 128) :
    val_main_v9 (F := Ideal) x1 x6 x7 (ix4 b h n e) = proj x1 x6 x7 b h n e := by
  rw [val_main_v9_apply, val_main_v8_apply, val_main_v5_apply, val_main_v7_apply, val_main_v6_apply]
  have e1 : ∀ k : Fin 128, lidx_main_v5 (idx_main_v9 (ix4 b h n e)) k = ix4 b n h k := fun k =>
    funext fun a => Fin.ext (by match a with | ⟨0, _⟩ => rfl | ⟨1, _⟩ => rfl | ⟨2, _⟩ => rfl | ⟨3, _⟩ => rfl)
  have e2 : ∀ k : Fin 128, ridx_main_v5 (idx_main_v9 (ix4 b h n e)) k = ix2 k e := fun k =>
    funext fun a => Fin.ext (by match a with | ⟨0, _⟩ => rfl | ⟨1, _⟩ => rfl)
  have e3 : idx_main_v6 (idx_main_v7 (idx_main_v9 (ix4 b h n e))) = ix1 e :=
    funext fun a => Fin.ext (by match a with | ⟨0, _⟩ => rfl)
  simp only [e1, e2, e3]
  rfl

/-- The projected and transposed visual value, read at (batch, head, node, feature): the reference contracts the
    feature axis against the weight matrix, adds the bias broadcast along the other axes, and swaps the node and
    head axes. -/
theorem v14_ix (x2 : (⟨S4x1024x8x128, .f32⟩ : BufTy).Contents (Elt Ideal)) (x6 : (⟨S128x128, .f32⟩ : BufTy).Contents (Elt Ideal)) (x7 : (⟨S128, .f32⟩ : BufTy).Contents (Elt Ideal))
    (b : Fin 4) (h : Fin 8) (n : Fin 1024) (e : Fin 128) :
    val_main_v14 (F := Ideal) x2 x6 x7 (ix4 b h n e) = proj x2 x6 x7 b h n e := by
  rw [val_main_v14_apply, val_main_v13_apply, val_main_v10_apply, val_main_v12_apply, val_main_v11_apply]
  have e1 : ∀ k : Fin 128, lidx_main_v10 (idx_main_v14 (ix4 b h n e)) k = ix4 b n h k := fun k =>
    funext fun a => Fin.ext (by match a with | ⟨0, _⟩ => rfl | ⟨1, _⟩ => rfl | ⟨2, _⟩ => rfl | ⟨3, _⟩ => rfl)
  have e2 : ∀ k : Fin 128, ridx_main_v10 (idx_main_v14 (ix4 b h n e)) k = ix2 k e := fun k =>
    funext fun a => Fin.ext (by match a with | ⟨0, _⟩ => rfl | ⟨1, _⟩ => rfl)
  have e3 : idx_main_v11 (idx_main_v12 (idx_main_v14 (ix4 b h n e))) = ix1 e :=
    funext fun a => Fin.ext (by match a with | ⟨0, _⟩ => rfl)
  simp only [e1, e2, e3]
  rfl

/-- The projected and transposed text query, read at (batch, head, node, feature): the reference contracts the
    feature axis against the weight matrix, adds the bias broadcast along the other axes, and swaps the node and
    head axes. -/
theorem v19_ix (x3 : (⟨S4x1024x8x128, .f32⟩ : BufTy).Contents (Elt Ideal)) (x8 : (⟨S128x128, .f32⟩ : BufTy).Contents (Elt Ideal)) (x9 : (⟨S128, .f32⟩ : BufTy).Contents (Elt Ideal))
    (b : Fin 4) (h : Fin 8) (n : Fin 1024) (e : Fin 128) :
    val_main_v19 (F := Ideal) x3 x8 x9 (ix4 b h n e) = proj x3 x8 x9 b h n e := by
  rw [val_main_v19_apply, val_main_v18_apply, val_main_v15_apply, val_main_v17_apply, val_main_v16_apply]
  have e1 : ∀ k : Fin 128, lidx_main_v15 (idx_main_v19 (ix4 b h n e)) k = ix4 b n h k := fun k =>
    funext fun a => Fin.ext (by match a with | ⟨0, _⟩ => rfl | ⟨1, _⟩ => rfl | ⟨2, _⟩ => rfl | ⟨3, _⟩ => rfl)
  have e2 : ∀ k : Fin 128, ridx_main_v15 (idx_main_v19 (ix4 b h n e)) k = ix2 k e := fun k =>
    funext fun a => Fin.ext (by match a with | ⟨0, _⟩ => rfl | ⟨1, _⟩ => rfl)
  have e3 : idx_main_v16 (idx_main_v17 (idx_main_v19 (ix4 b h n e))) = ix1 e :=
    funext fun a => Fin.ext (by match a with | ⟨0, _⟩ => rfl)
  simp only [e1, e2, e3]
  rfl

/-- The projected and transposed text key, read at (batch, head, node, feature): the reference contracts the
    feature axis against the weight matrix, adds the bias broadcast along the other axes, and swaps the node and
    head axes. -/
theorem v24_ix (x4 : (⟨S4x1024x8x128, .f32⟩ : BufTy).Contents (Elt Ideal)) (x8 : (⟨S128x128, .f32⟩ : BufTy).Contents (Elt Ideal)) (x9 : (⟨S128, .f32⟩ : BufTy).Contents (Elt Ideal))
    (b : Fin 4) (h : Fin 8) (n : Fin 1024) (e : Fin 128) :
    val_main_v24 (F := Ideal) x4 x8 x9 (ix4 b h n e) = proj x4 x8 x9 b h n e := by
  rw [val_main_v24_apply, val_main_v23_apply, val_main_v20_apply, val_main_v22_apply, val_main_v21_apply]
  have e1 : ∀ k : Fin 128, lidx_main_v20 (idx_main_v24 (ix4 b h n e)) k = ix4 b n h k := fun k =>
    funext fun a => Fin.ext (by match a with | ⟨0, _⟩ => rfl | ⟨1, _⟩ => rfl | ⟨2, _⟩ => rfl | ⟨3, _⟩ => rfl)
  have e2 : ∀ k : Fin 128, ridx_main_v20 (idx_main_v24 (ix4 b h n e)) k = ix2 k e := fun k =>
    funext fun a => Fin.ext (by match a with | ⟨0, _⟩ => rfl | ⟨1, _⟩ => rfl)
  have e3 : idx_main_v21 (idx_main_v22 (idx_main_v24 (ix4 b h n e))) = ix1 e :=
    funext fun a => Fin.ext (by match a with | ⟨0, _⟩ => rfl)
  simp only [e1, e2, e3]
  rfl

end Cert.CrossAttn.Ref

end
-- ==== Proof.RefSoftmax.lean ====
/-
  The reference computes each of its two softmaxes in fourteen operations: a batched contraction of the projected
  queries and keys over the feature axis, a multiplication by the logit scale, a maximum along the last axis, a
  subtraction, an exponential, a sum along the last axis and a division.  Read at explicit coordinates the result at
  (batch b, head h, row r, column c) is the specification's `attn`: the softmax over c of the scaled scores of row r.
  The two softmaxes differ only in which projections play the queries and which the keys.
-/
import proofs.«123841_j88502096101977_2_alg».proof.Proof.Gen.ReferenceIdeal.Read
import proofs.«123841_j88502096101977_2_alg».proof.Proof.Spec
import proofs.«123841_j88502096101977_2_alg».proof.Proof.RefProj

noncomputable section

namespace Cert.CrossAttn.Ref

open Idealize.ShloMosaic Idealize.ShloMosaic.ValueIdx Cert.ReferenceIdeal Cert.ReferenceIdeal.Read Cert.CrossAttn

/-! ## A maximum along the last axis, folded from −∞ -/

/-- The word 0xFF800000 denotes −∞, the least extended real. -/
theorem negInf_eq_bot : negInf = ⊥ := by
  unfold negInf
  simp [Ideal.ofBits, Ideal.ieee]

/-- The maximum of −∞ and anything is that thing. -/
theorem max_negInf (y : EReal) : max negInf y = y := by
  rw [negInf_eq_bot]
  exact max_eq_right bot_le

/-- The index (b, h, r) of the reduced array with the coordinate k put back on the last axis is (b, h, r, k). -/
theorem lift_row (hR : S4x8x1024x1024.Reduces [3] S4x8x1024) (b : Fin 4) (h : Fin 8) (r : Fin 1024)
    (k : Fin (S4x8x1024x1024.size 3)) :
    hR.lift (ix3 b h r) k = ix4 b h r (⟨k.val, k.isLt⟩ : Fin 1024) := by
  funext a
  apply Fin.ext
  match a with
  | ⟨0, _⟩ => rfl
  | ⟨1, _⟩ => rfl
  | ⟨2, _⟩ => rfl
  | ⟨3, _⟩ => rfl

/-- A reduction with a maximum body along the last axis of a [4, 8, 1024, 1024] array, started from −∞, read at
    (b, h, r): the fold of the maximum over row r. The maximum is commutative and associative, so the order of the
    fold does not matter. -/
theorem hostMax_ix (y : (⟨S4x8x1024x1024, .f32⟩ : BufTy).Contents (Elt Ideal)) (init : (⟨S_, .f32⟩ : BufTy).Contents (Elt Ideal))
    (hinit : ∀ i, init i = negInf) (h' : S4x8x1024x1024.ReducesTo [3] S4x8x1024) (hu : 0 < S_.numel)
    (b : Fin 4) (h : Fin 8) (r : Fin 1024) :
    Host.reduce (FloatOps.maximumf (F := Ideal) (φ := .f32)) y init h' hu (ix3 b h r)
      = (Finset.univ : Finset (Fin 1024)).fold max negInf (fun c => y (ix4 b h r c)) := by
  have hR : S4x8x1024x1024.Reduces [3] S4x8x1024 := by decide
  have key := Host.reduce_eq_fold_single (FloatOps.maximumf (F := Ideal) (φ := .f32)) y init h' hR hu (ix3 b h r)
  refine key.trans ?_
  have h0 : init (Shape.Idx.first hu) = negInf := hinit _
  have hf : (y ∘ hR.lift (ix3 b h r)) = fun c : Fin 1024 => y (ix4 b h r c) :=
    funext fun k => congrArg y (lift_row hR b h r k)
  exact (congrArg (fun v => Finset.fold max v (y ∘ hR.lift (ix3 b h r)) (Finset.univ : Finset (Fin 1024))) h0).trans
    (congrArg (fun f => Finset.fold max negInf f (Finset.univ : Finset (Fin 1024))) hf)

/-! ## The softmax of the text-over-visual scores (stages 30 … 43) -/

/-- The scaled scores: the contraction of a query row with a key row over the feature axis, times the logit scale. -/
theorem v32_ix (x1 x3 : (⟨S4x1024x8x128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (b : Fin 4) (h : Fin 8) (r c : Fin 1024) :
    val_main_v32 (F := Ideal) x1 x3 x6 x7 x8 x9 (ix4 b h r c) = score (proj x3 x8 x9 b h) (proj x1 x6 x7 b h) r c := by
  rw [val_main_v32_apply, val_main_v30_apply, val_main_v31_apply, val_main_cst_apply]
  have e1 : ∀ k : Fin 128, lidx_main_v30 (ix4 b h r c) k = ix4 b h r k := fun k =>
    funext fun a => Fin.ext (by match a with | ⟨0, _⟩ => rfl | ⟨1, _⟩ => rfl | ⟨2, _⟩ => rfl | ⟨3, _⟩ => rfl)
  have e2 : ∀ k : Fin 128, ridx_main_v30 (ix4 b h r c) k = ix4 b h c k := fun k =>
    funext fun a => Fin.ext (by match a with | ⟨0, _⟩ => rfl | ⟨1, _⟩ => rfl | ⟨2, _⟩ => rfl | ⟨3, _⟩ => rfl)
  simp only [e1, e2, v19_ix, v9_ix]
  rfl

/-- The row maximum: the reference folds the maximum along the last axis from −∞ and then takes the maximum with
    −∞ once more, which changes nothing. -/
theorem v35_ix (x1 x3 : (⟨S4x1024x8x128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (b : Fin 4) (h : Fin 8) (r : Fin 1024) :
    val_main_v35 (F := Ideal) x1 x3 x6 x7 x8 x9 (ix3 b h r)
      = rowMax (fun r c => val_main_v32 (F := Ideal) x1 x3 x6 x7 x8 x9 (ix4 b h r c)) r := by
  rw [val_main_v35_apply, val_main_v34_apply, val_main_cst_1_apply]
  unfold val_main_v33
  refine (congrArg (max negInf) (hostMax_ix (val_main_v32 (F := Ideal) x1 x3 x6 x7 x8 x9) (val_main_cst_0 (F := Ideal))
    (fun _ => rfl) _ _ b h r)).trans ?_
  exact max_negInf _

/-- The exponential of a score less its row's maximum (the maximum is broadcast back along the last axis). -/
theorem v39_ix (x1 x3 : (⟨S4x1024x8x128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (b : Fin 4) (h : Fin 8) (r c : Fin 1024) :
    val_main_v39 (F := Ideal) x1 x3 x6 x7 x8 x9 (ix4 b h r c)
      = expShift (fun r c => val_main_v32 (F := Ideal) x1 x3 x6 x7 x8 x9 (ix4 b h r c)) r c := by
  rw [val_main_v39_apply, val_main_v38_apply, val_main_v37_apply, val_main_v36_apply]
  have e1 : idx_main_v36 (idx_main_v37 (ix4 b h r c)) = ix3 b h r :=
    funext fun a => Fin.ext (by match a with | ⟨0, _⟩ => rfl | ⟨1, _⟩ => rfl | ⟨2, _⟩ => rfl)
  rw [e1, v35_ix]
  rfl

/-- The row's sum of exponentials: the reference's sum starts from the word 0, which is the number 0. -/
theorem v40_ix (x1 x3 : (⟨S4x1024x8x128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (b : Fin 4) (h : Fin 8) (r : Fin 1024) :
    val_main_v40 (F := Ideal) x1 x3 x6 x7 x8 x9 (ix3 b h r)
      = ∑ c : Fin 1024, val_main_v39 (F := Ideal) x1 x3 x6 x7 x8 x9 (ix4 b h r c) := by
  rw [val_main_v40_apply, val_main_cst_2_apply]
  have e1 : ∀ k : Fin 1024, idx_main_v40 (ix3 b h r) k = ix4 b h r k := fun k =>
    funext fun a => Fin.ext (by match a with | ⟨0, _⟩ => rfl | ⟨1, _⟩ => rfl | ⟨2, _⟩ => rfl | ⟨3, _⟩ => rfl)
  simp only [e1]
  rw [Ideal.ofBits_def, Ideal.ofBits_zero_f32, zero_add]

/-- The quotient: an exponential over its row's sum (the sum is broadcast back along the last axis). -/
theorem v43_ix (x1 x3 : (⟨S4x1024x8x128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (b : Fin 4) (h : Fin 8) (r c : Fin 1024) :
    val_main_v43 (F := Ideal) x1 x3 x6 x7 x8 x9 (ix4 b h r c)
      = softmax (fun r c => val_main_v32 (F := Ideal) x1 x3 x6 x7 x8 x9 (ix4 b h r c)) r c := by
  rw [val_main_v43_apply, val_main_v42_apply, val_main_v41_apply]
  have e1 : idx_main_v41 (idx_main_v42 (ix4 b h r c)) = ix3 b h r :=
    funext fun a => Fin.ext (by match a with | ⟨0, _⟩ => rfl | ⟨1, _⟩ => rfl | ⟨2, _⟩ => rfl)
  rw [e1, v40_ix]
  simp only [v39_ix]
  rfl

/-- Stages 30 … 43 together: the attention weights of the text-over-visual scores. -/
theorem v43_attn (x1 x3 : (⟨S4x1024x8x128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (b : Fin 4) (h : Fin 8) (r c : Fin 1024) :
    val_main_v43 (F := Ideal) x1 x3 x6 x7 x8 x9 (ix4 b h r c) = attn x3 x8 x9 x1 x6 x7 b h r c := by
  rw [v43_ix]
  have hS : (fun r c => val_main_v32 (F := Ideal) x1 x3 x6 x7 x8 x9 (ix4 b h r c))
      = score (proj x3 x8 x9 b h) (proj x1 x6 x7 b h) :=
    funext fun r => funext fun c => v32_ix x1 x3 x6 x7 x8 x9 b h r c
  rw [hS]
  rfl

/-! ## The softmax of the visual-over-text scores (stages 44 … 57) -/

/-- The scaled scores: the contraction of a query row with a key row over the feature axis, times the logit scale. -/
theorem v46_ix (x0 x4 : (⟨S4x1024x8x128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (b : Fin 4) (h : Fin 8) (r c : Fin 1024) :
    val_main_v46 (F := Ideal) x0 x4 x6 x7 x8 x9 (ix4 b h r c) = score (proj x0 x6 x7 b h) (proj x4 x8 x9 b h) r c := by
  rw [val_main_v46_apply, val_main_v44_apply, val_main_v45_apply, val_main_cst_3_apply]
  have e1 : ∀ k : Fin 128, lidx_main_v44 (ix4 b h r c) k = ix4 b h r k := fun k =>
    funext fun a => Fin.ext (by match a with | ⟨0, _⟩ => rfl | ⟨1, _⟩ => rfl | ⟨2, _⟩ => rfl | ⟨3, _⟩ => rfl)
  have e2 : ∀ k : Fin 128, ridx_main_v44 (ix4 b h r c) k = ix4 b h c k := fun k =>
    funext fun a => Fin.ext (by match a with | ⟨0, _⟩ => rfl | ⟨1, _⟩ => rfl | ⟨2, _⟩ => rfl | ⟨3, _⟩ => rfl)
  simp only [e1, e2, v4_ix, v24_ix]
  rfl

/-- The row maximum: the reference folds the maximum along the last axis from −∞ and then takes the maximum with
    −∞ once more, which changes nothing. -/
theorem v49_ix (x0 x4 : (⟨S4x1024x8x128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (b : Fin 4) (h : Fin 8) (r : Fin 1024) :
    val_main_v49 (F := Ideal) x0 x4 x6 x7 x8 x9 (ix3 b h r)
      = rowMax (fun r c => val_main_v46 (F := Ideal) x0 x4 x6 x7 x8 x9 (ix4 b h r c)) r := by
  rw [val_main_v49_apply, val_main_v48_apply, val_main_cst_5_apply]
  unfold val_main_v47
  refine (congrArg (max negInf) (hostMax_ix (val_main_v46 (F := Ideal) x0 x4 x6 x7 x8 x9) (val_main_cst_4 (F := Ideal))
    (fun _ => rfl) _ _ b h r)).trans ?_
  exact max_negInf _

/-- The exponential of a score less its row's maximum (the maximum is broadcast back along the last axis). -/
theorem v53_ix (x0 x4 : (⟨S4x1024x8x128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (b : Fin 4) (h : Fin 8) (r c : Fin 1024) :
    val_main_v53 (F := Ideal) x0 x4 x6 x7 x8 x9 (ix4 b h r c)
      = expShift (fun r c => val_main_v46 (F := Ideal) x0 x4 x6 x7 x8 x9 (ix4 b h r c)) r c := by
  rw [val_main_v53_apply, val_main_v52_apply, val_main_v51_apply, val_main_v50_apply]
  have e1 : idx_main_v50 (idx_main_v51 (ix4 b h r c)) = ix3 b h r :=
    funext fun a => Fin.ext (by match a with | ⟨0, _⟩ => rfl | ⟨1, _⟩ => rfl | ⟨2, _⟩ => rfl)
  rw [e1, v49_ix]
  rfl

/-- The row's sum of exponentials: the reference's sum starts from the word 0, which is the number 0. -/
theorem v54_ix (x0 x4 : (⟨S4x1024x8x128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (b : Fin 4) (h : Fin 8) (r : Fin 1024) :
    val_main_v54 (F := Ideal) x0 x4 x6 x7 x8 x9 (ix3 b h r)
      = ∑ c : Fin 1024, val_main_v53 (F := Ideal) x0 x4 x6 x7 x8 x9 (ix4 b h r c) := by
  rw [val_main_v54_apply, val_main_cst_6_apply]
  have e1 : ∀ k : Fin 1024, idx_main_v54 (ix3 b h r) k = ix4 b h r k := fun k =>
    funext fun a => Fin.ext (by match a with | ⟨0, _⟩ => rfl | ⟨1, _⟩ => rfl | ⟨2, _⟩ => rfl | ⟨3, _⟩ => rfl)
  simp only [e1]
  rw [Ideal.ofBits_def, Ideal.ofBits_zero_f32, zero_add]

/-- The quotient: an exponential over its row's sum (the sum is broadcast back along the last axis). -/
theorem v57_ix (x0 x4 : (⟨S4x1024x8x128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (b : Fin 4) (h : Fin 8) (r c : Fin 1024) :
    val_main_v57 (F := Ideal) x0 x4 x6 x7 x8 x9 (ix4 b h r c)
      = softmax (fun r c => val_main_v46 (F := Ideal) x0 x4 x6 x7 x8 x9 (ix4 b h r c)) r c := by
  rw [val_main_v57_apply, val_main_v56_apply, val_main_v55_apply]
  have e1 : idx_main_v55 (idx_main_v56 (ix4 b h r c)) = ix3 b h r :=
    funext fun a => Fin.ext (by match a with | ⟨0, _⟩ => rfl | ⟨1, _⟩ => rfl | ⟨2, _⟩ => rfl)
  rw [e1, v54_ix]
  simp only [v53_ix]
  rfl

/-- Stages 44 … 57 together: the attention weights of the visual-over-text scores. -/
theorem v57_attn (x0 x4 : (⟨S4x1024x8x128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (b : Fin 4) (h : Fin 8) (r c : Fin 1024) :
    val_main_v57 (F := Ideal) x0 x4 x6 x7 x8 x9 (ix4 b h r c) = attn x0 x6 x7 x4 x8 x9 b h r c := by
  rw [v57_ix]
  have hS : (fun r c => val_main_v46 (F := Ideal) x0 x4 x6 x7 x8 x9 (ix4 b h r c))
      = score (proj x0 x6 x7 b h) (proj x4 x8 x9 b h) :=
    funext fun r => funext fun c => v46_ix x0 x4 x6 x7 x8 x9 b h r c
  rw [hS]
  rfl

end Cert.CrossAttn.Ref

end
-- ==== Proof.RefWeights.lean ====
/-
  The reference's second result: the visual-over-text attention weights, [4, 8, 1024, 1024], returned as they are.
-/
import proofs.«123841_j88502096101977_2_alg».proof.Proof.Gen.ReferenceIdeal.Read
import proofs.«123841_j88502096101977_2_alg».proof.Proof.Spec
import proofs.«123841_j88502096101977_2_alg».proof.Proof.RefSoftmax

noncomputable section

namespace Cert.CrossAttn.Ref

open Idealize.ShloMosaic Idealize.ShloMosaic.ValueIdx Cert.ReferenceIdeal Cert.ReferenceIdeal.Read Cert.CrossAttn

/-- The reference's second result is the specification's `weights`. -/
theorem weights_eq (x0 x4 : (⟨S4x1024x8x128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) :
    val_main_v57 (F := Ideal) x0 x4 x6 x7 x8 x9 = weights x0 x4 x6 x7 x8 x9 := by
  funext i
  obtain ⟨b, h, r, c, rfl⟩ : ∃ (b : Fin 4) (h : Fin 8) (r c : Fin 1024), i = ix4 b h r c :=
    ⟨i 0, i 1, i 2, i 3, eq_ix4 i⟩
  rw [weights_ix]
  exact v57_attn x0 x4 x6 x7 x8 x9 b h r c

end Cert.CrossAttn.Ref

end
-- ==== Proof.RefFeatures.lean ====
/-
  The reference's first result.  The text-over-visual attention weights are contracted with the projected visual
  values over the key axis (the specification's `mix`), the head axis is moved back behind the node axis, and the
  head and feature axes are flattened into one axis of 8 · 128 columns.  Column j of the flattened axis holds head
  j / 128 and feature j % 128: reading the flattened array at (b, t, j) in row-major order is reading the
  [4, 1024, 8, 128] array at (b, t, j / 128, j % 128).
-/
import proofs.«123841_j88502096101977_2_alg».proof.Proof.Gen.ReferenceIdeal.Read
import proofs.«123841_j88502096101977_2_alg».proof.Proof.Spec
import proofs.«123841_j88502096101977_2_alg».proof.Proof.RefProj
import proofs.«123841_j88502096101977_2_alg».proof.Proof.RefSoftmax

noncomputable section

namespace Cert.CrossAttn.Ref

open Idealize.ShloMosaic Idealize.ShloMosaic.ValueIdx Cert.ReferenceIdeal Cert.ReferenceIdeal.Read Cert.CrossAttn

/-- The attention weights contracted with the projected visual values over the key axis. -/
theorem v58_ix (x1 x2 x3 : (⟨S4x1024x8x128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (b : Fin 4) (h : Fin 8) (t : Fin 1024) (e : Fin 128) :
    val_main_v58 (F := Ideal) x1 x2 x3 x6 x7 x8 x9 (ix4 b h t e)
      = mix (attn x3 x8 x9 x1 x6 x7 b h) (proj x2 x6 x7 b h) t e := by
  rw [val_main_v58_apply]
  have e1 : ∀ k : Fin 1024, lidx_main_v58 (ix4 b h t e) k = ix4 b h t k := fun k =>
    funext fun a => Fin.ext (by match a with | ⟨0, _⟩ => rfl | ⟨1, _⟩ => rfl | ⟨2, _⟩ => rfl | ⟨3, _⟩ => rfl)
  have e2 : ∀ k : Fin 1024, ridx_main_v58 (ix4 b h t e) k = ix4 b h k e := fun k =>
    funext fun a => Fin.ext (by match a with | ⟨0, _⟩ => rfl | ⟨1, _⟩ => rfl | ⟨2, _⟩ => rfl | ⟨3, _⟩ => rfl)
  simp only [e1, e2, v43_attn, v14_ix]
  rfl

/-- The same with the head axis behind the node axis. -/
theorem v59_ix (x1 x2 x3 : (⟨S4x1024x8x128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (b : Fin 4) (t : Fin 1024) (h : Fin 8) (e : Fin 128) :
    val_main_v59 (F := Ideal) x1 x2 x3 x6 x7 x8 x9 (ix4 b t h e)
      = mix (attn x3 x8 x9 x1 x6 x7 b h) (proj x2 x6 x7 b h) t e := by
  rw [val_main_v59_apply]
  have e1 : idx_main_v59 (ix4 b t h e) = ix4 b h t e :=
    funext fun a => Fin.ext (by match a with | ⟨0, _⟩ => rfl | ⟨1, _⟩ => rfl | ⟨2, _⟩ => rfl | ⟨3, _⟩ => rfl)
  rw [e1, v58_ix]

/-- Row-major position ((b · 1024 + t) · 1024 + j) of the flattened array, split again along [4, 1024, 8, 128], is
    (b, t, j / 128, j % 128). -/
theorem idx_v60_ix (b : Fin 4) (t j : Fin 1024) :
    idx_main_v60 (ix3 b t j) = ix4 b t (headOf j) (laneOf j) := by
  have hb : b.val < 4 := b.isLt
  have ht : t.val < 1024 := t.isLt
  have hj : j.val < 1024 := j.isLt
  funext a
  apply Fin.ext
  match a with
  | ⟨0, _⟩ => show ((b.val * 1024 + t.val) * 1024 + j.val) / 1048576 = b.val; omega
  | ⟨1, _⟩ => show ((b.val * 1024 + t.val) * 1024 + j.val) / 1024 % 1024 = t.val; omega
  | ⟨2, _⟩ => show ((b.val * 1024 + t.val) * 1024 + j.val) / 128 % 8 = j.val / 128; omega
  | ⟨3, _⟩ => show ((b.val * 1024 + t.val) * 1024 + j.val) % 128 = j.val % 128; omega

/-- The reference's first result is the specification's `features`. -/
theorem features_eq (x1 x2 x3 : (⟨S4x1024x8x128, .f32⟩ : BufTy).Contents (Elt Ideal)) (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) :
    val_main_v60 (F := Ideal) x1 x2 x3 x6 x7 x8 x9 = features x1 x2 x3 x6 x7 x8 x9 := by
  funext i
  obtain ⟨b, t, j, rfl⟩ : ∃ (b : Fin 4) (t j : Fin 1024), i = ix3 b t j := ⟨i 0, i 1, i 2, eq_ix3 i⟩
  rw [features_ix, val_main_v60_apply, idx_v60_ix, v59_ix]

end Cert.CrossAttn.Ref

end
-- ==== Proof.lean ====
/-
  A fused cross-attention kernel against its jnp reference, over the extended reals.

  Both programs take six feature arrays [4, 1024, 8, 128] (visual and text queries, keys and values; the text values
  are read by neither result), two [128, 128] projection matrices and two biases, and return
      features [b, t, 128·h + e] = ∑ v, softmax_v ((∑ d, tq[b,h,t,d] · vk[b,h,v,d]) · s) · vv[b,h,v,e]
      weights  [b, h, v, t]      = softmax_t ((∑ d, vq[b,h,v,d] · tk[b,h,t,d]) · s)
  where vq, vk, vv, tq, tk are the linear projections of the inputs (x · W + β on the feature axis), s is the single
  precision number nearest 1/√128 — the same word in both programs —, and softmax is exp (x − row maximum) over the
  row's sum of those exponentials (Proof/Spec.lean writes this once, with coordinates).

  The kernel runs a 4 × 8 grid, one (batch entry, head) pair per point.  At each point it loads the batch entry's
  feature blocks whole, cuts the point's head out of each, projects (operands rounded to a narrower format first:
  the identity here), forms both score matrices, both softmaxes and the mixed values, and writes one block of each
  result.  The reference does the same on whole arrays: contractions with batch axes, reductions along the last axis,
  transpositions and one reshape.  Over the extended reals every operation of one side IS the operation of the
  other: a matrix product into a zero accumulator and a host contraction are the same sum, a lane reduction and a
  host reduction the same sum or the same maximum (folded from −∞; the reference's extra maximum with −∞ changes
  nothing), the two exponentials and the two divisions the same functions.  So each side's result is the
  specification's function of the arguments, index by index, and no law that needs finite entries is used: the
  precondition is never opened.

  The pieces: Proof/Pieces.lean and the Body modules (what one point stores, as values), Proof/BlockReads.lean and
  Proof/KernelArrays.lean (the blocks are parts of one whole-array function and cover the results), the Ref modules
  (the reference's operations, read at an index, are the specification), and below the five claims.  The idealization
  rewrote nothing, so the kernel's idealization is its own text read over the extended reals.
-/
import proofs.«123841_j88502096101977_2_alg».proof.Defs
import proofs.«123841_j88502096101977_2_alg».proof.Proof.Gen.Kernel
import proofs.«123841_j88502096101977_2_alg».proof.Proof.Gen.Kernel.Skeleton
import proofs.«123841_j88502096101977_2_alg».proof.Proof.Gen.Kernel.Launch
import proofs.«123841_j88502096101977_2_alg».proof.Proof.Gen.Kernel.Points
import proofs.«123841_j88502096101977_2_alg».proof.Proof.Gen.Kernel.Frame
import proofs.«123841_j88502096101977_2_alg».proof.Proof.Gen.KernelIdeal
import proofs.«123841_j88502096101977_2_alg».proof.Proof.Gen.KernelIdeal.Skeleton
import proofs.«123841_j88502096101977_2_alg».proof.Proof.Gen.KernelIdeal.Launch
import proofs.«123841_j88502096101977_2_alg».proof.Proof.Gen.KernelIdeal.Points
import proofs.«123841_j88502096101977_2_alg».proof.Proof.Gen.KernelIdeal.Frame
import proofs.«123841_j88502096101977_2_alg».proof.Proof.Gen.ReferenceIdeal
import proofs.«123841_j88502096101977_2_alg».proof.Proof.Gen.Pre_finite_inputs
import proofs.«123841_j88502096101977_2_alg».proof.Proof.Gen.KernelIdeal.Value
import proofs.«123841_j88502096101977_2_alg».proof.Proof.Gen.ReferenceIdeal.Run
import proofs.«123841_j88502096101977_2_alg».proof.Proof.Gen.ReferenceIdeal.Read
import proofs.«123841_j88502096101977_2_alg».proof.Proof.KernelArrays
import proofs.«123841_j88502096101977_2_alg».proof.Proof.BodyFeatures
import proofs.«123841_j88502096101977_2_alg».proof.Proof.BodyWeights
import proofs.«123841_j88502096101977_2_alg».proof.Proof.RefWeights
import proofs.«123841_j88502096101977_2_alg».proof.Proof.RefFeatures
import Idealize.ShloMosaic.Adequacy
import Idealize.ShloMosaic.Init

noncomputable section

namespace Cert.Proof

open Idealize.ShloMosaic Idealize.SL.Sem Cert.CrossAttn

/-- The kernel as printed runs to the end without a fault and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the specification's `features` and `weights`
    of those arguments: the kernel's two result arrays block by block (`Arrays.run`), the reference's two results
    operation by operation (`Ref.features_eq`, `Ref.weights_eq`). -/
theorem algebraic : Cert.algebraic_KernelIdeal_ReferenceIdeal := by
  intro m ρ m' ρ' _ hagree
  refine ⟨fun c => Arrays.featuresOf m c, fun c => Arrays.weightsOf m c,
    Arrays.run m ρ Body.features_payload Body.weights_payload, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [Cert.ReferenceIdeal.Read.val_main_v60_eq, Ref.features_eq, a1, a2, a3, a6, a7, a8, a9]
  · obtain ⟨a0, a1, a2, a3, a4, a5, a6, a7, a8, a9⟩ := hagree c
    rw [Cert.ReferenceIdeal.Read.val_main_v57_eq, Ref.weights_eq, a0, a4, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
